-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4095 : Shape := ⟨2, ![8, 4095]⟩
abbrev S8x4095x2 : Shape := ⟨3, ![8, 4095, 2]⟩
abbrev S32000x300 : Shape := ⟨2, ![32000, 300]⟩
abbrev S_ : Shape := ⟨0, ![]⟩

class Facts : Prop where
  bcast_S_S32000x300 : S_.BroadcastsInDim S32000x300 (![] : Fin 0 → Fin S32000x300.rank)
  reducesTo_S32000x300_S_d0_1 : S32000x300.ReducesTo [0, 1] S_
  h_S_ : 0 < S_.numel

variable [Facts]

def fn {F : FTy → Type} [FloatOps F] (main_arg0 : IVec S8x4095 32) (main_arg1 : IVec S8x4095x2 32) (main_arg2 : FVec F S32000x300 .f32) : IVec S_ 1 :=
  let main_v0 : FVec F S32000x300 .f32 := Host.absf main_arg2
  let main_cst : FVec F S_ .f32 := constant S_ .f32 0x7F800000#32
  let main_v1 : FVec F S32000x300 .f32 := broadcastInDim S32000x300 ![] bcast_S_S32000x300 main_cst
  let main_v2 : IVec S32000x300 1 := cmpf .olt main_v0 main_v1
  let main_c : IVec S_ 1 := constantI S_ 1 1#1
  let main_v3 : IVec S_ 1 := (fun x v => Host.reduce IntOp.andi x v reducesTo_S32000x300_S_d0_1 h_S_) main_v2 main_c
  main_v3
-- ==== Kernel.lean ====
abbrev S8x4095 : Shape := ⟨2, ![8, 4095]⟩
abbrev S8x4095x2 : Shape := ⟨3, ![8, 4095, 2]⟩
abbrev S32000x300 : Shape := ⟨2, ![32000, 300]⟩
abbrev S8x4095x1 : Shape := ⟨3, ![8, 4095, 1]⟩
abbrev S_ : Shape := ⟨0, ![]⟩
abbrev S8x2048 : Shape := ⟨2, ![8, 2048]⟩
abbrev S8 : Shape := ⟨1, ![8]⟩
abbrev S8x1 : Shape := ⟨2, ![8, 1]⟩
abbrev S8x2048x1 : Shape := ⟨3, ![8, 2048, 1]⟩
abbrev S8x2048x300 : Shape := ⟨3, ![8, 2048, 300]⟩
abbrev S8x1x4095 : Shape := ⟨3, ![8, 1, 4095]⟩
abbrev S8x4095x300 : Shape := ⟨3, ![8, 4095, 300]⟩
abbrev S1x1x4095 : Shape := ⟨3, ![1, 1, 4095]⟩
abbrev S1x256x300 : Shape := ⟨3, ![1, 256, 300]⟩
abbrev S1x4095x300 : Shape := ⟨3, ![1, 4095, 300]⟩
abbrev S1x4095 : Shape := ⟨2, ![1, 4095]⟩
abbrev S4095x300 : Shape := ⟨2, ![4095, 300]⟩
abbrev S256x1 : Shape := ⟨2, ![256, 1]⟩
abbrev S256x4095 : Shape := ⟨2, ![256, 4095]⟩
abbrev S256x300 : Shape := ⟨2, ![256, 300]⟩
abbrev S4095 : Shape := ⟨1, ![4095]⟩
abbrev S4095x1 : Shape := ⟨2, ![4095, 1]⟩

abbrev nBuf : Space → Nat
  | .hbm => 63
  | .vmem => 9
  | .smem => 0
  | _ => 0

abbrev bufTy : (tb : Table) → Fin (tcTables nBuf tb) → BufTy
  | .hbm, ⟨0, _⟩ => ⟨S8x4095, .i32⟩
  | .hbm, ⟨1, _⟩ => ⟨S8x4095x2, .i32⟩
  | .hbm, ⟨2, _⟩ => ⟨S32000x300, .f32⟩
  | .hbm, ⟨3, _⟩ => ⟨S8x4095x1, .i32⟩
  | .hbm, ⟨4, _⟩ => ⟨S8x4095, .i32⟩
  | .hbm, ⟨5, _⟩ => ⟨S8x4095x1, .i32⟩
  | .hbm, ⟨6, _⟩ => ⟨S8x4095, .i32⟩
  | .hbm, ⟨7, _⟩ => ⟨S8x4095, .i1⟩
  | .hbm, ⟨8, _⟩ => ⟨S_, .i32⟩
  | .hbm, ⟨9, _⟩ => ⟨S8x4095, .i32⟩
  | .hbm, ⟨10, _⟩ => ⟨S8x4095, .i1⟩
  | .hbm, ⟨11, _⟩ => ⟨S8x4095, .i1⟩
  | .hbm, ⟨12, _⟩ => ⟨S8x4095, .i32⟩
  | .hbm, ⟨13, _⟩ => ⟨S_, .i32⟩
  | .hbm, ⟨14, _⟩ => ⟨S_, .i32⟩
  | .hbm, ⟨15, _⟩ => ⟨S8x4095, .i32⟩
  | .hbm, ⟨16, _⟩ => ⟨S_, .i32⟩
  | .hbm, ⟨17, _⟩ => ⟨S8x4095, .i32⟩
  | .hbm, ⟨18, _⟩ => ⟨S8x4095, .i32⟩
  | .hbm, ⟨19, _⟩ => ⟨S_, .i32⟩
  | .hbm, ⟨20, _⟩ => ⟨S_, .i32⟩
  | .hbm, ⟨21, _⟩ => ⟨S8x4095, .i32⟩
  | .hbm, ⟨22, _⟩ => ⟨S8x4095, .i32⟩
  | .hbm, ⟨23, _⟩ => ⟨S_, .i32⟩
  | .hbm, ⟨24, _⟩ => ⟨S8x2048, .i32⟩
  | .hbm, ⟨25, _⟩ => ⟨S8, .i32⟩
  | .hbm, ⟨26, _⟩ => ⟨S8x1, .i32⟩
  | .hbm, ⟨27, _⟩ => ⟨S_, .i32⟩
  | .hbm, ⟨28, _⟩ => ⟨S8x1, .i32⟩
  | .hbm, ⟨29, _⟩ => ⟨S8x1, .i1⟩
  | .hbm, ⟨30, _⟩ => ⟨S_, .i32⟩
  | .hbm, ⟨31, _⟩ => ⟨S8x1, .i32⟩
  | .hbm, ⟨32, _⟩ => ⟨S8x1, .i32⟩
  | .hbm, ⟨33, _⟩ => ⟨S8x1, .i32⟩
  | .hbm, ⟨34, _⟩ => ⟨S_, .i32⟩
  | .hbm, ⟨35, _⟩ => ⟨S8x4095, .i32⟩
  | .hbm, ⟨36, _⟩ => ⟨S8x4095, .i1⟩
  | .hbm, ⟨37, _⟩ => ⟨S_, .i32⟩
  | .hbm, ⟨38, _⟩ => ⟨S8x4095, .i32⟩
  | .hbm, ⟨39, _⟩ => ⟨S8x4095, .i32⟩
  | .hbm, ⟨40, _⟩ => ⟨S8x4095, .i32⟩
  | .hbm, ⟨41, _⟩ => ⟨S8x4095, .i32⟩
  | .hbm, ⟨42, _⟩ => ⟨S8x4095x1, .i32⟩
  | .hbm, ⟨43, _⟩ => ⟨S8x4095x1, .i32⟩
  | .hbm, ⟨44, _⟩ => ⟨S8x4095x2, .i32⟩
  | .hbm, ⟨45, _⟩ => ⟨S8x2048, .i32⟩
  | .hbm, ⟨46, _⟩ => ⟨S_, .i32⟩
  | .hbm, ⟨47, _⟩ => ⟨S8x2048, .i32⟩
  | .hbm, ⟨48, _⟩ => ⟨S8x2048, .i1⟩
  | .hbm, ⟨49, _⟩ => ⟨S_, .i32⟩
  | .hbm, ⟨50, _⟩ => ⟨S8x2048, .i32⟩
  | .hbm, ⟨51, _⟩ => ⟨S8x2048, .i32⟩
  | .hbm, ⟨52, _⟩ => ⟨S8x2048, .i32⟩
  | .hbm, ⟨53, _⟩ => ⟨S8x2048x1, .i32⟩
  | .hbm, ⟨54, _⟩ => ⟨S8x2048x300, .f32⟩
  | .hbm, ⟨55, _⟩ => ⟨S8x2048x300, .bf16⟩
  | .hbm, ⟨56, _⟩ => ⟨S8x4095x1, .i32⟩
  | .hbm, ⟨57, _⟩ => ⟨S8x4095, .i32⟩
  | .hbm, ⟨58, _⟩ => ⟨S8x1x4095, .i32⟩
  | .hbm, ⟨59, _⟩ => ⟨S8x4095x1, .i32⟩
  | .hbm, ⟨60, _⟩ => ⟨S8x4095, .i32⟩
  | .hbm, ⟨61, _⟩ => ⟨S8x1x4095, .i32⟩
  | .hbm, ⟨62, _⟩ => ⟨S8x4095x300, .f32⟩
  | .local _ .vmem, ⟨0, _⟩ => ⟨S1x1x4095, .i32⟩
  | .local _ .vmem, ⟨1, _⟩ => ⟨S1x1x4095, .i32⟩
  | .local _ .vmem, ⟨2, _⟩ => ⟨S1x1x4095, .i32⟩
  | .local _ .vmem, ⟨3, _⟩ => ⟨S1x1x4095, .i32⟩
  | .local _ .vmem, ⟨4, _⟩ => ⟨S1x256x300, .bf16⟩
  | .local _ .vmem, ⟨5, _⟩ => ⟨S1x256x300, .bf16⟩
  | .local _ .vmem, ⟨6, _⟩ => ⟨S1x4095x300, .f32⟩
  | .local _ .vmem, ⟨7, _⟩ => ⟨S1x4095x300, .f32⟩
  | .local _ .vmem, ⟨8, _⟩ => ⟨S1x4095, .f32⟩
  | _, _ => ⟨S8x4095, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_call0_c : Ref sig .tc := ⟨.hbm, 13, rfl⟩
abbrev main_call0_call0_v0 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_call1_v0 : Ref sig .tc := ⟨.hbm, 20, rfl⟩
abbrev main_call1_v1 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_5 : Ref sig .tc := ⟨.hbm, 34, rfl⟩
abbrev main_v21 : Ref sig .tc := ⟨.hbm, 35, rfl⟩
abbrev main_v22 : Ref sig .tc := ⟨.hbm, 36, rfl⟩
abbrev main_c_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_7 : Ref sig .tc := ⟨.hbm, 46, rfl⟩
abbrev main_v31 : Ref sig .tc := ⟨.hbm, 47, rfl⟩
abbrev main_v32 : Ref sig .tc := ⟨.hbm, 48, rfl⟩
abbrev main_c_8 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x4095 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x4095 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x300 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4095x300 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  slices_S8x4095x2_S8x4095x1_0_0_0 : S8x4095x2.Slices ![0, 0, 0] S8x4095x1
  shapeCasts_S8x4095x1_S8x4095 : S8x4095x1.ShapeCasts S8x4095
  slices_S8x4095x2_S8x4095x1_0_0_1 : S8x4095x2.Slices ![0, 0, 1] S8x4095x1
  bcast_S_S8x4095 : S_.BroadcastsInDim S8x4095 (![] : Fin 0 → Fin S8x4095.rank)
  natLt_1_32 : 1 < 32
  bcast_S_S_ : S_.BroadcastsInDim S_ (![] : Fin 0 → Fin S_.rank)
  reduceWindows_S8x4095_S8x4095_w1s1p0_0_w4095s1p4094_0 : S8x4095.ReduceWindows (![1, 4095] : Fin 2 → Nat) ![1, 1] ![0, 4094] ![0, 0] S8x4095
  h_S_ : 0 < S_.numel
  bcast_S_S8x2048 : S_.BroadcastsInDim S8x2048 (![] : Fin 0 → Fin S8x2048.rank)
  bcast_S8_S8x1_0 : S8.BroadcastsInDim S8x1 (![0] : Fin 1 → Fin S8x1.rank)
  bcast_S_S8x1 : S_.BroadcastsInDim S8x1 (![] : Fin 0 → Fin S8x1.rank)
  bcast_S8x1_S8x4095_0_1 : S8x1.BroadcastsInDim S8x4095 (![0, 1] : Fin 2 → Fin S8x4095.rank)
  bcast_S8x4095_S8x4095x1_0_1 : S8x4095.BroadcastsInDim S8x4095x1 (![0, 1] : Fin 2 → Fin S8x4095x1.rank)
  concatenates_S8x4095x1_S8x4095x1_S8x4095x2_d2 : Shape.Concatenates [S8x4095x1, S8x4095x1] S8x4095x2 2
  bcast_S8x2048_S8x2048x1_0_1 : S8x2048.BroadcastsInDim S8x2048x1 (![0, 1] : Fin 2 → Fin S8x2048x1.rank)
  bitsLt_bf16_f32 : FTy.bits .bf16 < FTy.bits .f32
  bcast_S8x4095_S8x1x4095_0_2 : S8x4095.BroadcastsInDim S8x1x4095 (![0, 2] : Fin 2 → Fin S8x1x4095.rank)
  inb_S1x4095x300_S1x4095x300_0_0_0 : ∀ a, (![0, 0, 0] : Fin 3 → Nat) a + S1x4095x300.size a ≤ S1x4095x300.size a
  h_S1x4095x300 : 0 < S1x4095x300.numel
  shapeCasts_S1x4095x300_S4095x300 : S1x4095x300.ShapeCasts S4095x300
  shapeCasts_S4095x300_S1x4095x300 : S4095x300.ShapeCasts S1x4095x300
  inb_S1x4095_S1x4095_0_0 : ∀ a, (![0, 0] : Fin 2 → Nat) a + S1x4095.size a ≤ S1x4095.size a
  h_S1x4095 : 0 < S1x4095.numel
  shapeCasts_S1x4095_S1x4095 : S1x4095.ShapeCasts S1x4095
  inb_S1x1x4095_S1x1x4095_0_0_0 : ∀ a, (![0, 0, 0] : Fin 3 → Nat) a + S1x1x4095.size a ≤ S1x1x4095.size a
  h_S1x1x4095 : 0 < S1x1x4095.numel
  shapeCasts_S1x1x4095_S1x4095 : S1x1x4095.ShapeCasts S1x4095
  iota_S256x1_d0_w32 : S256x1.Iotas .tc 32 [0]
  broadcasts_S256x1_S256x4095 : S256x1.Broadcasts S256x4095
  broadcasts_S1x4095_S256x4095 : S1x4095.Broadcasts S256x4095
  inb_S1x256x300_S1x256x300_0_0_0 : ∀ a, (![0, 0, 0] : Fin 3 → Nat) a + S1x256x300.size a ≤ S1x256x300.size a
  h_S1x256x300 : 0 < S1x256x300.numel
  shapeCasts_S1x256x300_S256x300 : S1x256x300.ShapeCasts S256x300
  reduces_S256x4095_S4095 : S256x4095.Reduces [0] S4095
  shapeCasts_S4095_S1x4095 : S4095.ShapeCasts S1x4095
  transposes_S1x4095_p1_0_S4095x1 : S1x4095.Transposes [1, 0] S4095x1
  broadcasts_S4095x1_S4095x300 : S4095x1.Broadcasts S4095x300
  scatter_S8x2048_S8x4095x2_S8x4095_n_01_01_2_wf : ScatterDims.WF S8x2048 S8x4095x2 S8x4095 [] [0, 1] [0, 1] 2
  gather_S32000x300_S8x2048x1_S8x2048x300_2_0_n_n_0_2_1300_wf : GatherDims.WF S32000x300 S8x2048x1 S8x2048x300 [2] [0] [] [0] [] 2 ![1, 300]
  dot_S256x4095_S256x300_S4095x300_0_0_1_1_n_n_wf : DotDims.WF S256x4095 S256x300 S4095x300 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x4095.size a ≤ S8x1x4095.size a
  hwx0_0 : ∀ i : grid0.Coords, EltTy.bits .i32 = 32 ∨ (Rect.block (s := S8x1x4095) S1x1x4095.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x4095.size a ≤ S8x1x4095.size a
  hwx0_1 : ∀ i : grid0.Coords, EltTy.bits .i32 = 32 ∨ (Rect.block (s := S8x1x4095) S1x1x4095.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x300.size a ≤ S8x2048x300.size a
  hwx0_2 : ∀ i : grid0.Coords, EltTy.bits .bf16 = 32 ∨ (Rect.block (s := S8x2048x300) S1x256x300.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4095x300.size a ≤ S8x4095x300.size a
  hwx0_3 : ∀ i : grid0.Coords, EltTy.bits .f32 = 32 ∨ (Rect.block (s := S8x4095x300) S1x4095x300.size (cc0_transform_3 i) (hinb0_3 i)).WholeWords (EltTy.packing .f32)

variable [Facts₀]

def scatter_S8x2048_S8x4095x2_S8x4095_n_01_01_2 : ScatterDims S8x2048 S8x4095x2 S8x4095 where
  updateWindowDims := []
  insertedWindowDims := [0, 1]
  scatterDimsToOperandDims := [0, 1]
  indexVectorDim := 2
  wf := scatter_S8x2048_S8x4095x2_S8x4095_n_01_01_2_wf
def gather_S32000x300_S8x2048x1_S8x2048x300_2_0_n_n_0_2_1300 : GatherDims S32000x300 S8x2048x1 S8x2048x300 where
  offsetDims := [2]
  collapsedSliceDims := [0]
  operandBatchingDims := []
  startIndicesBatchingDims := []
  startIndexMap := [0]
  indexVectorDim := 2
  sliceSizes := ![1, 300]
  wf := gather_S32000x300_S8x2048x1_S8x2048x300_2_0_n_n_0_2_1300_wf
def dot_S256x4095_S256x300_S4095x300_0_0_1_1_n_n : DotDims S256x4095 S256x300 S4095x300 where
  lhsContracting := [0]
  rhsContracting := [0]
  lhsNonContracting := [1]
  rhsNonContracting := [1]
  lhsBatch := []
  rhsBatch := []
  wf := dot_S256x4095_S256x300_S4095x300_0_0_1_1_n_n_wf

abbrev win0_0 : Pipeline.Window sig grid0 :=
  Pipeline.Window.ofSpec (Memref.whole main_v41) S1x1x4095.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v44) S1x1x4095.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v38) S1x256x300.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v45) S1x4095x300.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4095 : Shape := ⟨2, ![8, 4095]⟩
abbrev S8x4095x2 : Shape := ⟨3, ![8, 4095, 2]⟩
abbrev S32000x300 : Shape := ⟨2, ![32000, 300]⟩
abbrev S8x4095x1 : Shape := ⟨3, ![8, 4095, 1]⟩
abbrev S_ : Shape := ⟨0, ![]⟩
abbrev S8x2048 : Shape := ⟨2, ![8, 2048]⟩
abbrev S8 : Shape := ⟨1, ![8]⟩
abbrev S8x1 : Shape := ⟨2, ![8, 1]⟩
abbrev S2048 : Shape := ⟨1, ![2048]⟩
abbrev S1x1x2048 : Shape := ⟨3, ![1, 1, 2048]⟩
abbrev S8x4095x2048 : Shape := ⟨3, ![8, 4095, 2048]⟩
abbrev S8x2048x1 : Shape := ⟨3, ![8, 2048, 1]⟩
abbrev S8x2048x300 : Shape := ⟨3, ![8, 2048, 300]⟩
abbrev S8x4095x300 : Shape := ⟨3, ![8, 4095, 300]⟩

abbrev nBuf : Space → Nat
  | .hbm => 76
  | .vmem => 0
  | .smem => 0
  | _ => 0

abbrev bufTy : (tb : Table) → Fin (tcTables nBuf tb) → BufTy
  | .hbm, ⟨0, _⟩ => ⟨S8x4095, .i32⟩
  | .hbm, ⟨1, _⟩ => ⟨S8x4095x2, .i32⟩
  | .hbm, ⟨2, _⟩ => ⟨S32000x300, .f32⟩
  | .hbm, ⟨3, _⟩ => ⟨S8x4095x1, .i32⟩
  | .hbm, ⟨4, _⟩ => ⟨S8x4095, .i32⟩
  | .hbm, ⟨5, _⟩ => ⟨S8x4095x1, .i32⟩
  | .hbm, ⟨6, _⟩ => ⟨S8x4095, .i32⟩
  | .hbm, ⟨7, _⟩ => ⟨S8x4095, .i1⟩
  | .hbm, ⟨8, _⟩ => ⟨S_, .i32⟩
  | .hbm, ⟨9, _⟩ => ⟨S8x4095, .i32⟩
  | .hbm, ⟨10, _⟩ => ⟨S8x4095, .i1⟩
  | .hbm, ⟨11, _⟩ => ⟨S8x4095, .i1⟩
  | .hbm, ⟨12, _⟩ => ⟨S8x4095, .i32⟩
  | .hbm, ⟨13, _⟩ => ⟨S_, .i32⟩
  | .hbm, ⟨14, _⟩ => ⟨S_, .i32⟩
  | .hbm, ⟨15, _⟩ => ⟨S8x4095, .i32⟩
  | .hbm, ⟨16, _⟩ => ⟨S_, .i32⟩
  | .hbm, ⟨17, _⟩ => ⟨S8x4095, .i32⟩
  | .hbm, ⟨18, _⟩ => ⟨S8x4095, .i32⟩
  | .hbm, ⟨19, _⟩ => ⟨S_, .i32⟩
  | .hbm, ⟨20, _⟩ => ⟨S_, .i32⟩
  | .hbm, ⟨21, _⟩ => ⟨S8x4095, .i32⟩
  | .hbm, ⟨22, _⟩ => ⟨S8x4095, .i32⟩
  | .hbm, ⟨23, _⟩ => ⟨S_, .i32⟩
  | .hbm, ⟨24, _⟩ => ⟨S8x2048, .i32⟩
  | .hbm, ⟨25, _⟩ => ⟨S8, .i32⟩
  | .hbm, ⟨26, _⟩ => ⟨S8x1, .i32⟩
  | .hbm, ⟨27, _⟩ => ⟨S_, .i32⟩
  | .hbm, ⟨28, _⟩ => ⟨S8x1, .i32⟩
  | .hbm, ⟨29, _⟩ => ⟨S8x1, .i1⟩
  | .hbm, ⟨30, _⟩ => ⟨S_, .i32⟩
  | .hbm, ⟨31, _⟩ => ⟨S8x1, .i32⟩
  | .hbm, ⟨32, _⟩ => ⟨S8x1, .i32⟩
  | .hbm, ⟨33, _⟩ => ⟨S8x1, .i32⟩
  | .hbm, ⟨34, _⟩ => ⟨S_, .i32⟩
  | .hbm, ⟨35, _⟩ => ⟨S8x4095, .i32⟩
  | .hbm, ⟨36, _⟩ => ⟨S8x4095, .i1⟩
  | .hbm, ⟨37, _⟩ => ⟨S_, .i32⟩
  | .hbm, ⟨38, _⟩ => ⟨S8x4095, .i32⟩
  | .hbm, ⟨39, _⟩ => ⟨S8x4095, .i32⟩
  | .hbm, ⟨40, _⟩ => ⟨S8x4095, .i32⟩
  | .hbm, ⟨41, _⟩ => ⟨S8x4095, .i32⟩
  | .hbm, ⟨42, _⟩ => ⟨S8x4095x1, .i32⟩
  | .hbm, ⟨43, _⟩ => ⟨S8x4095x1, .i32⟩
  | .hbm, ⟨44, _⟩ => ⟨S8x4095x2, .i32⟩
  | .hbm, ⟨45, _⟩ => ⟨S8x2048, .i32⟩
  | .hbm, ⟨46, _⟩ => ⟨S2048, .i32⟩
  | .hbm, ⟨47, _⟩ => ⟨S1x1x2048, .i32⟩
  | .hbm, ⟨48, _⟩ => ⟨S8x4095x1, .i32⟩
  | .hbm, ⟨49, _⟩ => ⟨S8x4095x2048, .i32⟩
  | .hbm, ⟨50, _⟩ => ⟨S8x4095x2048, .i32⟩
  | .hbm, ⟨51, _⟩ => ⟨S8x4095x2048, .i1⟩
  | .hbm, ⟨52, _⟩ => ⟨S8x4095x1, .i32⟩
  | .hbm, ⟨53, _⟩ => ⟨S8x4095x2048, .i32⟩
  | .hbm, ⟨54, _⟩ => ⟨S8x4095x2048, .i32⟩
  | .hbm, ⟨55, _⟩ => ⟨S8x4095x2048, .i1⟩
  | .hbm, ⟨56, _⟩ => ⟨S8x4095x2048, .i1⟩
  | .hbm, ⟨57, _⟩ => ⟨S8x4095x2048, .f32⟩
  | .hbm, ⟨58, _⟩ => ⟨S_, .i32⟩
  | .hbm, ⟨59, _⟩ => ⟨S8x2048, .i32⟩
  | .hbm, ⟨60, _⟩ => ⟨S8x2048, .i1⟩
  | .hbm, ⟨61, _⟩ => ⟨S_, .i32⟩
  | .hbm, ⟨62, _⟩ => ⟨S8x2048, .i32⟩
  | .hbm, ⟨63, _⟩ => ⟨S8x2048, .i32⟩
  | .hbm, ⟨64, _⟩ => ⟨S8x2048, .i32⟩
  | .hbm, ⟨65, _⟩ => ⟨S8x2048x1, .i32⟩
  | .hbm, ⟨66, _⟩ => ⟨S8x2048x300, .f32⟩
  | .hbm, ⟨67, _⟩ => ⟨S_, .f32⟩
  | .hbm, ⟨68, _⟩ => ⟨S8x4095, .f32⟩
  | .hbm, ⟨69, _⟩ => ⟨S8x4095x1, .f32⟩
  | .hbm, ⟨70, _⟩ => ⟨S_, .f32⟩
  | .hbm, ⟨71, _⟩ => ⟨S8x4095x1, .f32⟩
  | .hbm, ⟨72, _⟩ => ⟨S8x4095x1, .f32⟩
  | .hbm, ⟨73, _⟩ => ⟨S8x4095x300, .f32⟩
  | .hbm, ⟨74, _⟩ => ⟨S8x4095x300, .f32⟩
  | .hbm, ⟨75, _⟩ => ⟨S8x4095x300, .f32⟩
  | _, _ => ⟨S8x4095, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_call0_c : Ref sig .tc := ⟨.hbm, 13, rfl⟩
abbrev main_call0_call0_v0 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_call1_v0 : Ref sig .tc := ⟨.hbm, 20, rfl⟩
abbrev main_call1_v1 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_5 : Ref sig .tc := ⟨.hbm, 34, rfl⟩
abbrev main_v21 : Ref sig .tc := ⟨.hbm, 35, rfl⟩
abbrev main_v22 : Ref sig .tc := ⟨.hbm, 36, rfl⟩
abbrev main_c_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c_7 : Ref sig .tc := ⟨.hbm, 58, rfl⟩
abbrev main_v43 : Ref sig .tc := ⟨.hbm, 59, rfl⟩
abbrev main_v44 : Ref sig .tc := ⟨.hbm, 60, rfl⟩
abbrev main_c_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst : Ref sig .tc := ⟨.hbm, 67, rfl⟩
abbrev main_v50 : Ref sig .tc := ⟨.hbm, 68, rfl⟩
abbrev main_v51 : Ref sig .tc := ⟨.hbm, 69, rfl⟩
abbrev main_cst_9 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩

abbrev nD : Nat := 1
abbrev τ : Topo := Topo.v7x

variable {F : FTy → Type} [FloatOps F]

class Facts₀ : Prop where
  slices_S8x4095x2_S8x4095x1_0_0_0 : S8x4095x2.Slices ![0, 0, 0] S8x4095x1
  shapeCasts_S8x4095x1_S8x4095 : S8x4095x1.ShapeCasts S8x4095
  slices_S8x4095x2_S8x4095x1_0_0_1 : S8x4095x2.Slices ![0, 0, 1] S8x4095x1
  bcast_S_S8x4095 : S_.BroadcastsInDim S8x4095 (![] : Fin 0 → Fin S8x4095.rank)
  natLt_1_32 : 1 < 32
  bcast_S_S_ : S_.BroadcastsInDim S_ (![] : Fin 0 → Fin S_.rank)
  reduceWindows_S8x4095_S8x4095_w1s1p0_0_w4095s1p4094_0 : S8x4095.ReduceWindows (![1, 4095] : Fin 2 → Nat) ![1, 1] ![0, 4094] ![0, 0] S8x4095
  h_S_ : 0 < S_.numel
  bcast_S_S8x2048 : S_.BroadcastsInDim S8x2048 (![] : Fin 0 → Fin S8x2048.rank)
  bcast_S8_S8x1_0 : S8.BroadcastsInDim S8x1 (![0] : Fin 1 → Fin S8x1.rank)
  bcast_S_S8x1 : S_.BroadcastsInDim S8x1 (![] : Fin 0 → Fin S8x1.rank)
  bcast_S8x1_S8x4095_0_1 : S8x1.BroadcastsInDim S8x4095 (![0, 1] : Fin 2 → Fin S8x4095.rank)
  bcast_S8x4095_S8x4095x1_0_1 : S8x4095.BroadcastsInDim S8x4095x1 (![0, 1] : Fin 2 → Fin S8x4095x1.rank)
  concatenates_S8x4095x1_S8x4095x1_S8x4095x2_d2 : Shape.Concatenates [S8x4095x1, S8x4095x1] S8x4095x2 2
  bcast_S2048_S1x1x2048_2 : S2048.BroadcastsInDim S1x1x2048 (![2] : Fin 1 → Fin S1x1x2048.rank)
  bcast_S1x1x2048_S8x4095x2048_0_1_2 : S1x1x2048.BroadcastsInDim S8x4095x2048 (![0, 1, 2] : Fin 3 → Fin S8x4095x2048.rank)
  bcast_S8x4095x1_S8x4095x2048_0_1_2 : S8x4095x1.BroadcastsInDim S8x4095x2048 (![0, 1, 2] : Fin 3 → Fin S8x4095x2048.rank)
  bcast_S8x2048_S8x2048x1_0_1 : S8x2048.BroadcastsInDim S8x2048x1 (![0, 1] : Fin 2 → Fin S8x2048x1.rank)
  reducesTo_S8x4095x2048_S8x4095_d2 : S8x4095x2048.ReducesTo [2] S8x4095
  bcast_S_S8x4095x1 : S_.BroadcastsInDim S8x4095x1 (![] : Fin 0 → Fin S8x4095x1.rank)
  bcast_S8x4095x1_S8x4095x300_0_1_2 : S8x4095x1.BroadcastsInDim S8x4095x300 (![0, 1, 2] : Fin 3 → Fin S8x4095x300.rank)
  scatter_S8x2048_S8x4095x2_S8x4095_n_01_01_2_wf : ScatterDims.WF S8x2048 S8x4095x2 S8x4095 [] [0, 1] [0, 1] 2
  gather_S32000x300_S8x2048x1_S8x2048x300_2_0_n_n_0_2_1300_wf : GatherDims.WF S32000x300 S8x2048x1 S8x2048x300 [2] [0] [] [0] [] 2 ![1, 300]
  dot_S8x4095x2048_S8x2048x300_S8x4095x300_2_1_1_2_0_0_wf : DotDims.WF S8x4095x2048 S8x2048x300 S8x4095x300 [2] [1] [1] [2] [0] [0]

variable [Facts₀]

def scatter_S8x2048_S8x4095x2_S8x4095_n_01_01_2 : ScatterDims S8x2048 S8x4095x2 S8x4095 where
  updateWindowDims := []
  insertedWindowDims := [0, 1]
  scatterDimsToOperandDims := [0, 1]
  indexVectorDim := 2
  wf := scatter_S8x2048_S8x4095x2_S8x4095_n_01_01_2_wf
def gather_S32000x300_S8x2048x1_S8x2048x300_2_0_n_n_0_2_1300 : GatherDims S32000x300 S8x2048x1 S8x2048x300 where
  offsetDims := [2]
  collapsedSliceDims := [0]
  operandBatchingDims := []
  startIndicesBatchingDims := []
  startIndexMap := [0]
  indexVectorDim := 2
  sliceSizes := ![1, 300]
  wf := gather_S32000x300_S8x2048x1_S8x2048x300_2_0_n_n_0_2_1300_wf
def dot_S8x4095x2048_S8x2048x300_S8x4095x300_2_1_1_2_0_0 : DotDims S8x4095x2048 S8x2048x300 S8x4095x300 where
  lhsContracting := [2]
  rhsContracting := [1]
  lhsNonContracting := [1]
  rhsNonContracting := [2]
  lhsBatch := [0]
  rhsBatch := [0]
  wf := dot_S8x4095x2048_S8x2048x300_S8x4095x300_2_1_1_2_0_0_wf

class Facts : Prop extends Facts₀ where

variable [Facts]
-- ==== Proof.Cases.lean ====
/-
  What each of the body's three control cases leaves in the output block's staging buffer and in the carried
  count row, as pure functions of what the point loaded and of what the point before left.

  First tile of a batch row (case A): the block is reset to zero and the tile's product is added to it; the count row
  is reset to zero and the tile's count is added.  A middle tile (case B): product and count are added to what the tile
  before left.  Last tile (case C): after the same additions the block is divided, row by row, by the larger of
  the row's count and one.
-/
import proofs.«137302_j21079699489144_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Cases

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- Middle tile, the output block: what the tile before left plus this tile's product. -/
theorem out_B (c : Dev nD) (i : grid0.Coords) (a2 : Memref sig .tc .vmem S1x1x4095 .i32) (h2 : a2.IsWhole) (a3 : Memref sig .tc .vmem S1x1x4095 .i32) (h3 : a3.IsWhole) (a4 : Memref sig .tc .vmem S1x256x300 .bf16) (h4 : a4.IsWhole) (a5 : Memref sig .tc .vmem S1x4095x300 .f32) (h5 : a5.IsWhole) (a6 : Memref sig .tc .vmem S1x4095 .f32) (h6 : a6.IsWhole) (hc0 : ¬cond0_0 i) (hc1 : ¬cond0_1 i)
    (x0 x1 : Vec F S1x1x4095 .i32) (x2 : Vec F S1x256x300 .bf16) (xo3 : Vec F S1x4095x300 .f32) (xs0 : Vec F S1x4095 .f32) :
    out0_B_3 c i a2 h2 a3 h3 a4 h4 a5 h5 a6 h6 hc0 hc1 x0 x1 x2 xo3 xs0 = k0_pay6 i x0 x1 x2 xo3 := by
  unfold out0_B_3
  rw [View.read_writes_eq_canon _ _ _ (cover0_B_3 c i a2 h2 a3 h3 a4 h4 a5 h5 a6 h6 hc0 hc1 x0 x1 x2 xo3 xs0)]
  unfold kernelRun0_B
  dsimp only
  rw [View.canon_unit_zero hz3]
  simp only [View.readAt_eq_ld, h2.read_unread, h3.read_unread, h4.read_unread, h5.read_unread, h6.read_unread,
    View.ld_unit_zero (S := S1x1x4095) hz3, View.ld_unit_zero (S := S1x256x300) hz3, View.ld_unit_zero (S := S1x4095x300) hz3,
    View.ld_unit_zero (S := S1x4095) hz2]

/-- Middle tile, the count row: what the tile before left plus this tile's count. -/
theorem sout_B (c : Dev nD) (i : grid0.Coords) (a2 : Memref sig .tc .vmem S1x1x4095 .i32) (h2 : a2.IsWhole) (a3 : Memref sig .tc .vmem S1x1x4095 .i32) (h3 : a3.IsWhole) (a4 : Memref sig .tc .vmem S1x256x300 .bf16) (h4 : a4.IsWhole) (a5 : Memref sig .tc .vmem S1x4095x300 .f32) (h5 : a5.IsWhole) (a6 : Memref sig .tc .vmem S1x4095 .f32) (h6 : a6.IsWhole) (hc0 : ¬cond0_0 i) (hc1 : ¬cond0_1 i)
    (x0 x1 : Vec F S1x1x4095 .i32) (x2 : Vec F S1x256x300 .bf16) (xo3 : Vec F S1x4095x300 .f32) (xs0 : Vec F S1x4095 .f32) :
    sout0_B_0 c i a2 h2 a3 h3 a4 h4 a5 h5 a6 h6 hc0 hc1 x0 x1 x2 xo3 xs0 = k0_pay1 (k0_pay7 i x0 x1) xs0 := by
  unfold sout0_B_0
  rw [View.read_writes_eq_canon _ _ _ (scover0_B_0 c i a2 h2 a3 h3 a4 h4 a5 h5 a6 h6 hc0 hc1 x0 x1 x2 xo3 xs0)]
  unfold kernelRun0_B
  dsimp only
  sl_unfold_words
  rw [View.canon_unit_zero hz2]
  simp only [View.readAt_eq_ld, h2.read_unread, h3.read_unread, h4.read_unread, h5.read_unread, h6.read_unread,
    View.ld_unit_zero (S := S1x1x4095) hz3, View.ld_unit_zero (S := S1x256x300) hz3, View.ld_unit_zero (S := S1x4095x300) hz3,
    View.ld_unit_zero (S := S1x4095) hz2]

/-- First tile, the output block: zero plus this tile's product. -/
theorem out_A (c : Dev nD) (i : grid0.Coords) (a2 : Memref sig .tc .vmem S1x1x4095 .i32) (h2 : a2.IsWhole) (a3 : Memref sig .tc .vmem S1x1x4095 .i32) (h3 : a3.IsWhole) (a4 : Memref sig .tc .vmem S1x256x300 .bf16) (h4 : a4.IsWhole) (a5 : Memref sig .tc .vmem S1x4095x300 .f32) (h5 : a5.IsWhole) (a6 : Memref sig .tc .vmem S1x4095 .f32) (h6 : a6.IsWhole) (hc0 : cond0_0 i) (hc1 : ¬cond0_1 i)
    (x0 x1 : Vec F S1x1x4095 .i32) (x2 : Vec F S1x256x300 .bf16) :
    out0_A_3 c i a2 h2 a3 h3 a4 h4 a5 h5 a6 h6 hc0 hc1 x0 x1 x2 = k0_pay6 i x0 x1 x2 k0_pay3 := by
  unfold out0_A_3
  rw [View.read_writes_eq_canon _ _ _ (cover0_A_3 c i a2 h2 a3 h3 a4 h4 a5 h5 a6 h6 hc0 hc1 x0 x1 x2)]
  unfold kernelRun0_A
  dsimp only
  sl_unfold_words
  rw [View.canon_cons_unit_zero (S := S1x4095x300) hz3, View.readCov_unit_zero (S := S1x4095x300) _ hz3]
  simp only [View.readAt_eq_ld, h2.read_unread, h3.read_unread, h4.read_unread, h5.read_unread, h6.read_unread,
    View.ld_unit_zero (S := S1x1x4095) hz3, View.ld_unit_zero (S := S1x256x300) hz3, View.ld_unit_zero (S := S1x4095x300) hz3,
    View.ld_unit_zero (S := S1x4095) hz2]

/-- First tile, the count row: zero plus this tile's count. -/
theorem sout_A (c : Dev nD) (i : grid0.Coords) (a2 : Memref sig .tc .vmem S1x1x4095 .i32) (h2 : a2.IsWhole) (a3 : Memref sig .tc .vmem S1x1x4095 .i32) (h3 : a3.IsWhole) (a4 : Memref sig .tc .vmem S1x256x300 .bf16) (h4 : a4.IsWhole) (a5 : Memref sig .tc .vmem S1x4095x300 .f32) (h5 : a5.IsWhole) (a6 : Memref sig .tc .vmem S1x4095 .f32) (h6 : a6.IsWhole) (hc0 : cond0_0 i) (hc1 : ¬cond0_1 i)
    (x0 x1 : Vec F S1x1x4095 .i32) (x2 : Vec F S1x256x300 .bf16) :
    sout0_A_0 c i a2 h2 a3 h3 a4 h4 a5 h5 a6 h6 hc0 hc1 x0 x1 x2 = k0_pay1 (k0_pay7 i x0 x1) k0_pay4 := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S1x4095) hz2, View.readCov_unit_zero (S := S1x4095) _ hz2]
  simp only [View.readAt_eq_ld, h2.read_unread, h3.read_unread, h4.read_unread, h5.read_unread, h6.read_unread,
    View.ld_unit_zero (S := S1x1x4095) hz3, View.ld_unit_zero (S := S1x256x300) hz3, View.ld_unit_zero (S := S1x4095x300) hz3,
    View.ld_unit_zero (S := S1x4095) hz2]

/-- Last tile, the count row: what the tile before left plus this tile's count. -/
theorem sout_C (c : Dev nD) (i : grid0.Coords) (a2 : Memref sig .tc .vmem S1x1x4095 .i32) (h2 : a2.IsWhole) (a3 : Memref sig .tc .vmem S1x1x4095 .i32) (h3 : a3.IsWhole) (a4 : Memref sig .tc .vmem S1x256x300 .bf16) (h4 : a4.IsWhole) (a5 : Memref sig .tc .vmem S1x4095x300 .f32) (h5 : a5.IsWhole) (a6 : Memref sig .tc .vmem S1x4095 .f32) (h6 : a6.IsWhole) (hc0 : ¬cond0_0 i) (hc1 : cond0_1 i)
    (x0 x1 : Vec F S1x1x4095 .i32) (x2 : Vec F S1x256x300 .bf16) (xo3 : Vec F S1x4095x300 .f32) (xs0 : Vec F S1x4095 .f32) :
    sout0_C_0 c i a2 h2 a3 h3 a4 h4 a5 h5 a6 h6 hc0 hc1 x0 x1 x2 xo3 xs0 = k0_pay1 (k0_pay7 i x0 x1) xs0 := by
  unfold sout0_C_0
  rw [View.read_writes_eq_canon _ _ _ (scover0_C_0 c i a2 h2 a3 h3 a4 h4 a5 h5 a6 h6 hc0 hc1 x0 x1 x2 xo3 xs0)]
  unfold kernelRun0_C
  dsimp only
  sl_unfold_words
  rw [View.canon_unit_zero hz2]
  simp only [View.readAt_eq_ld, h2.read_unread, h3.read_unread, h4.read_unread, h5.read_unread, h6.read_unread,
    View.ld_unit_zero (S := S1x1x4095) hz3, View.ld_unit_zero (S := S1x256x300) hz3, View.ld_unit_zero (S := S1x4095x300) hz3,
    View.ld_unit_zero (S := S1x4095) hz2]

/-- Last tile, the output block: the accumulated block divided, row by row, by the larger of the row's accumulated
    count and one. -/
theorem out_C (c : Dev nD) (i : grid0.Coords) (a2 : Memref sig .tc .vmem S1x1x4095 .i32) (h2 : a2.IsWhole) (a3 : Memref sig .tc .vmem S1x1x4095 .i32) (h3 : a3.IsWhole) (a4 : Memref sig .tc .vmem S1x256x300 .bf16) (h4 : a4.IsWhole) (a5 : Memref sig .tc .vmem S1x4095x300 .f32) (h5 : a5.IsWhole) (a6 : Memref sig .tc .vmem S1x4095 .f32) (h6 : a6.IsWhole) (hc0 : ¬cond0_0 i) (hc1 : cond0_1 i)
    (x0 x1 : Vec F S1x1x4095 .i32) (x2 : Vec F S1x256x300 .bf16) (xo3 : Vec F S1x4095x300 .f32) (xs0 : Vec F S1x4095 .f32) :
    out0_C_3 c i a2 h2 a3 h3 a4 h4 a5 h5 a6 h6 hc0 hc1 x0 x1 x2 xo3 xs0 = k0_pay2 (k0_pay1 (k0_pay7 i x0 x1) xs0) (k0_pay6 i x0 x1 x2 xo3) := by
  unfold out0_C_3
  rw [View.read_writes_eq_canon _ _ _ (cover0_C_3 c i a2 h2 a3 h3 a4 h4 a5 h5 a6 h6 hc0 hc1 x0 x1 x2 xo3 xs0)]
  unfold kernelRun0_C
  dsimp only
  sl_unfold_words
  rw [View.canon_cons_unit_zero (S := S1x4095x300) hz3, View.readCov_unit_zero (S := S1x4095) _ hz2,
    View.readCov_unit_zero (S := S1x4095x300) _ hz3]
  simp only [View.readAt_eq_ld, h2.read_unread, h3.read_unread, h4.read_unread, h5.read_unread, h6.read_unread,
    View.ld_unit_zero (S := S1x1x4095) hz3, View.ld_unit_zero (S := S1x256x300) hz3, View.ld_unit_zero (S := S1x4095x300) hz3,
    View.ld_unit_zero (S := S1x4095) hz2]

end Cert.KernelIdeal.Cases

end
-- ==== Proof.Steps.lean ====
/-
  What the output block's staging buffer and the carried count row hold after each grid point, as the body's
  arithmetic applied to the point's input blocks and to what the point before left.

  First tile of a batch row: the zero block plus the tile's product, the zero row plus the tile's count.
  Middle tile: what the tile before left, plus the tile's product and count.
  Last tile: as a middle tile, and then the block divided by the floored count.
-/
import proofs.«137302_j21079699489144_1_alg».proof.Proof.Cases

set_option maxRecDepth 16384

noncomputable section

open Idealize.ShloMosaic Idealize.ShloMosaic.TcCoe Idealize.SL.Sem

namespace Cert.KernelIdeal.Steps

open Cert.KernelIdeal Cert.KernelIdeal.Gen

variable {F : FTy → Type} [FloatOps F]
variable (m : (ℓ : Loc nD τ sig) → Buf (Elt F) ℓ)

/-- The output block after the first tile of a batch row. -/
theorem first_out (c : Dev nD) (t : Fin cfg0.N) (h0 : t.val % 8 = 0) (h1 : ¬t.val % 8 = 7) :
    (outsAt0 m c t.val t.isLt).1 = k0_pay6 (grid0.coords t) (iblk m c 0 t) (iblk m c 1 t) (iblk m c 2 t) k0_pay3 := by
  rw [outsAt0_A m c t h0 h1]
  dsimp only
  exact Cases.out_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

/-- The count row after the first tile of a batch row. -/
theorem first_cnt (c : Dev nD) (t : Fin cfg0.N) (h0 : t.val % 8 = 0) (h1 : ¬t.val % 8 = 7) :
    (outsAt0 m c t.val t.isLt).2 = k0_pay1 (k0_pay7 (grid0.coords t) (iblk m c 0 t) (iblk m c 1 t)) k0_pay4 := by
  rw [outsAt0_A m c t h0 h1]
  dsimp only
  exact Cases.sout_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

/-- The output block after a middle tile. -/
theorem middle_out (c : Dev nD) (t : Fin cfg0.N) (h0 : ¬t.val % 8 = 0) (h1 : ¬t.val % 8 = 7) :
    (outsAt0 m c t.val t.isLt).1 = k0_pay6 (grid0.coords t) (iblk m c 0 t) (iblk m c 1 t) (iblk m c 2 t) (outsAt0 m c (t.val - 1) (Nat.lt_of_le_of_lt (Nat.sub_le _ _) t.isLt)).1 := by
  rw [outsAt0_B m c t h0 h1]
  dsimp only
  exact Cases.out_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2

/-- The count row after a middle tile. -/
theorem middle_cnt (c : Dev nD) (t : Fin cfg0.N) (h0 : ¬t.val % 8 = 0) (h1 : ¬t.val % 8 = 7) :
    (outsAt0 m c t.val t.isLt).2 = k0_pay1 (k0_pay7 (grid0.coords t) (iblk m c 0 t) (iblk m c 1 t)) (outsAt0 m c (t.val - 1) (Nat.lt_of_le_of_lt (Nat.sub_le _ _) t.isLt)).2 := by
  rw [outsAt0_B m c t h0 h1]
  dsimp only
  exact Cases.sout_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2

/-- The output block after the last tile. -/
theorem last_out (c : Dev nD) (t : Fin cfg0.N) (h0 : ¬t.val % 8 = 0) (h1 : t.val % 8 = 7) :
    (outsAt0 m c t.val t.isLt).1 = k0_pay2 (k0_pay1 (k0_pay7 (grid0.coords t) (iblk m c 0 t) (iblk m c 1 t)) (outsAt0 m c (t.val - 1) (Nat.lt_of_le_of_lt (Nat.sub_le _ _) t.isLt)).2) (k0_pay6 (grid0.coords t) (iblk m c 0 t) (iblk m c 1 t) (iblk m c 2 t) (outsAt0 m c (t.val - 1) (Nat.lt_of_le_of_lt (Nat.sub_le _ _) t.isLt)).1) := by
  rw [outsAt0_C m c t h0 h1]
  dsimp only
  exact Cases.out_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2

/-- The count row after the last tile. -/
theorem last_cnt (c : Dev nD) (t : Fin cfg0.N) (h0 : ¬t.val % 8 = 0) (h1 : t.val % 8 = 7) :
    (outsAt0 m c t.val t.isLt).2 = k0_pay1 (k0_pay7 (grid0.coords t) (iblk m c 0 t) (iblk m c 1 t)) (outsAt0 m c (t.val - 1) (Nat.lt_of_le_of_lt (Nat.sub_le _ _) t.isLt)).2 := by
  rw [outsAt0_C m c t h0 h1]
  dsimp only
  exact Cases.sout_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2

end Cert.KernelIdeal.Steps

end
-- ==== Proof.LibBlockSum.lean ====
/-
  Sums over a merged contraction axis.

  A contraction over `n * d` consecutive indices, that is `n` blocks of length `d` laid side by side, is the
  sum, block by block, of the `n` contractions over `d`.  Blocks whose terms all vanish may be left out.  A
  left-to-right accumulation from a starting value is that value plus the sum of what was added.  All of it is
  stated over an arbitrary commutative additive monoid: only commutativity and associativity of `+` are used,
  never cancellation or distributivity, so every statement holds on the extended reals as it stands, with no
  finiteness hypothesis.
-/
import Mathlib.Algebra.BigOperators.Fin
import Mathlib.Data.Fintype.BigOperators
import Mathlib.Logic.Equiv.Fin.Basic

namespace Cert.BlockSum

open Finset

variable {M : Type*} [AddCommMonoid M]

/-- Entry `c` of block `t` on the merged axis sits at position `c + d * t`. -/
def merged {n d : ℕ} (t : Fin n) (c : Fin d) : Fin (n * d) := finProdFinEquiv (t, c)

@[simp] theorem merged_val {n d : ℕ} (t : Fin n) (c : Fin d) : ((merged t c : Fin (n * d)) : ℕ) = c.val + d * t.val := rfl

/-- The block a merged position lies in. -/
theorem merged_div {n d : ℕ} (t : Fin n) (c : Fin d) : ((merged t c : Fin (n * d)) : ℕ) / d = t.val := by
  have hd : 0 < d := Nat.pos_of_ne_zero fun h => by subst h; exact c.elim0
  rw [merged_val, Nat.add_mul_div_left _ _ hd, Nat.div_eq_of_lt c.isLt, Nat.zero_add]

/-- The place of a merged position inside its block. -/
theorem merged_mod {n d : ℕ} (t : Fin n) (c : Fin d) : ((merged t c : Fin (n * d)) : ℕ) % d = c.val := by
  rw [merged_val, Nat.add_mul_mod_self_left, Nat.mod_eq_of_lt c.isLt]

/-- A sum over the merged axis is the sum over the blocks of the sums inside each block. -/
theorem sum_merged {n d : ℕ} (f : Fin (n * d) → M) :
    ∑ k, f k = ∑ t : Fin n, ∑ c : Fin d, f (merged t c) := by
  rw [← Equiv.sum_comp finProdFinEquiv f, Fintype.sum_prod_type]
  rfl

/-- The same when the merged term is known block by block. -/
theorem sum_merged_of {n d : ℕ} (f : Fin (n * d) → M) (g : Fin n → Fin d → M)
    (h : ∀ t c, f (merged t c) = g t c) : ∑ k, f k = ∑ t, ∑ c, g t c := by
  rw [sum_merged]
  exact Finset.sum_congr rfl fun t _ => Finset.sum_congr rfl fun c _ => h t c

/-- Terms that vanish outside `p` may be left out of a sum. -/
theorem sum_drop_zero {ι : Type*} [Fintype ι] (F : ι → M) (p : ι → Prop) [DecidablePred p]
    (h : ∀ t, ¬ p t → F t = 0) : ∑ t, F t = ∑ t ∈ univ.filter p, F t := by
  rw [Finset.sum_filter]
  refine Finset.sum_congr rfl fun t _ => ?_
  split_ifs with hp
  · rfl
  · exact h t hp

/-- Adding the entries of a list one after the other onto `z` gives `z` plus their sum. -/
theorem foldl_add_list (l : List M) (z : M) : l.foldl (· + ·) z = z + l.sum := by
  induction l generalizing z with
  | nil => simp
  | cons a l ih => rw [List.foldl_cons, ih, List.sum_cons, add_assoc]

/-- Accumulating `a 0, a 1, …` in order onto `z` gives `z` plus the sum of the `a t`. -/
theorem foldl_add_ofFn {n : ℕ} (a : Fin n → M) (z : M) : (List.ofFn a).foldl (· + ·) z = z + ∑ t, a t := by
  rw [foldl_add_list, List.sum_ofFn]

/-- Nine contributions added one after the other onto zero. -/
theorem acc_nine (a : Fin 9 → M) :
    0 + a 0 + a 1 + a 2 + a 3 + a 4 + a 5 + a 6 + a 7 + a 8 = ∑ t, a t := by
  simp only [Fin.sum_univ_succ, Fin.sum_univ_zero, zero_add, add_zero]
  simp only [add_assoc]
  rfl

/-- Four contributions added one after the other onto zero. -/
theorem acc_four (a : Fin 4 → M) : 0 + a 0 + a 1 + a 2 + a 3 = ∑ t, a t := by
  simp only [Fin.sum_univ_succ, Fin.sum_univ_zero, zero_add, add_zero]
  simp only [add_assoc]
  rfl

end Cert.BlockSum
-- ==== Proof.Blocks.lean ====
/-
  The grid has 64 points: point `n` works on batch row `n / 8` and on tile `n % 8` of the 2048 positions.
  At that point the two interval windows hold row `n / 8` of the lower and upper bounds, whole, and the embedding
  window holds positions `256 (n % 8) … 256 (n % 8) + 255` of row `n / 8`; the output window's block is row `n / 8`,
  whole, whatever the tile.
-/
import proofs.«137302_j21079699489144_1_alg».proof.Proof.Gen.KernelIdeal.Frame
import proofs.«137302_j21079699489144_1_alg».proof.Proof.LibBlockSum
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ)

/-- The grid point's coordinates and every window's block index, decided over the 64 points. -/
theorem idx_facts : ∀ t : Fin cfg0.N,
    ((grid0.coords t) 0).val = t.val / 8 ∧ ((grid0.coords t) 1).val = t.val % 8
    ∧ win0_0.index t (0 : Fin 3) = t.val / 8 ∧ win0_0.index t (1 : Fin 3) = 0 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = t.val % 8 ∧ win0_2.index t (2 : Fin 3) = 0
    ∧ win0_3.index t (0 : Fin 3) = t.val / 8 ∧ win0_3.index t (1 : Fin 3) = 0 ∧ win0_3.index t (2 : Fin 3) = 0 :=
  (by decide +kernel : ∀ t : Fin grid0.N, _)

theorem row_lt (t : Fin cfg0.N) : t.val / 8 < 8 := by
  have h := lt_of_lt_of_eq t.isLt (show cfg0.N = 64 from N_0); omega

theorem tile_lt (t : Fin cfg0.N) : t.val % 8 < 8 := Nat.mod_lt _ (by decide)

/-- The batch row of a point, and its tile. -/
abbrev row (t : Fin cfg0.N) : Fin 8 := ⟨t.val / 8, row_lt t⟩
abbrev tile (t : Fin cfg0.N) : Fin 8 := ⟨t.val % 8, tile_lt t⟩

/-- The lower-bound window's block at a point is the point's batch row of the lower bounds. -/
theorem lo_blk (c : Dev nD) (t : Fin cfg0.N) (q : Fin 4095) :
    (iblk m c 0 t : Vec F S1x1x4095 .i32) (ix3 (0 : Fin 1) (0 : Fin 1) q)
      = (V m c main_v41 : S8x1x4095.Idx → BitVec 32) (ix3 (row t) (0 : Fin 1) q) := by
  obtain ⟨-, -, e0, e1, e2, -⟩ := idx_facts t
  unfold iblk
  rw [View.read_apply]
  show V m c main_v41 (((cfg0.win 0).blk t).view.emb (ix3 (0 : Fin 1) (0 : Fin 1) q)) = V m c main_v41 _
  congr 1
  funext a; apply Fin.ext
  match a with
  | ⟨0, _⟩ => show win0_0.index t (0 : Fin 3) * 1 + 1 * 0 = t.val / 8; omega
  | ⟨1, _⟩ => show win0_0.index t (1 : Fin 3) * 1 + 1 * 0 = 0; omega
  | ⟨2, _⟩ => show win0_0.index t (2 : Fin 3) * 4095 + 1 * q.val = q.val; omega

/-- The upper-bound window's block at a point is the point's batch row of the upper bounds. -/
theorem hi_blk (c : Dev nD) (t : Fin cfg0.N) (q : Fin 4095) :
    (iblk m c 1 t : Vec F S1x1x4095 .i32) (ix3 (0 : Fin 1) (0 : Fin 1) q)
      = (V m c main_v44 : S8x1x4095.Idx → BitVec 32) (ix3 (row t) (0 : Fin 1) q) := by
  obtain ⟨-, -, -, -, -, e0, e1, e2, -⟩ := idx_facts t
  unfold iblk
  rw [View.read_apply]
  show V m c main_v44 (((cfg0.win 1).blk t).view.emb (ix3 (0 : Fin 1) (0 : Fin 1) q)) = V m c main_v44 _
  congr 1
  funext a; apply Fin.ext
  match a with
  | ⟨0, _⟩ => show win0_1.index t (0 : Fin 3) * 1 + 1 * 0 = t.val / 8; omega
  | ⟨1, _⟩ => show win0_1.index t (1 : Fin 3) * 1 + 1 * 0 = 0; omega
  | ⟨2, _⟩ => show win0_1.index t (2 : Fin 3) * 4095 + 1 * q.val = q.val; omega

/-- The embedding window's block at a point: entry `p` of the tile is position `p + 256 · tile` of the batch row. -/
theorem emb_blk (c : Dev nD) (t : Fin cfg0.N) (p : Fin 256) (d : Fin 300) :
    (iblk m c 2 t : Vec F S1x256x300 .bf16) (ix3 (0 : Fin 1) p d)
      = (V m c main_v38 : S8x2048x300.Idx → F .bf16) (ix3 (row t) (BlockSum.merged (tile t) p : Fin (8 * 256)) d) := by
  obtain ⟨-, -, -, -, -, -, -, -, e0, e1, e2, -⟩ := idx_facts t
  unfold iblk
  rw [View.read_apply]
  show V m c main_v38 (((cfg0.win 2).blk t).view.emb (ix3 (0 : Fin 1) p d)) = V m c main_v38 _
  congr 1
  funext a; apply Fin.ext
  match a with
  | ⟨0, _⟩ => show win0_2.index t (0 : Fin 3) * 1 + 1 * 0 = t.val / 8; omega
  | ⟨1, _⟩ => show win0_2.index t (1 : Fin 3) * 256 + 1 * p.val = p.val + 256 * (t.val % 8); omega
  | ⟨2, _⟩ => show win0_2.index t (2 : Fin 3) * 300 + 1 * d.val = d.val; omega

/-- Entry `(0, q, d)` of the output window's block at a point sits at `(row, q, d)` of the result array. -/
theorem out_emb (t : Fin cfg0.N) (q : Fin 4095) (d : Fin 300) :
    ((cfg0.win 3).blk t).view.emb (ix3 (0 : Fin 1) q d) = (ix3 (row t) q d : S8x4095x300.Idx) := by
  obtain ⟨-, -, -, -, -, -, -, -, -, -, -, e0, e1, e2⟩ := idx_facts t
  funext a; apply Fin.ext
  match a with
  | ⟨0, _⟩ => show win0_3.index t (0 : Fin 3) * 1 + 1 * 0 = t.val / 8; omega
  | ⟨1, _⟩ => show win0_3.index t (1 : Fin 3) * 4095 + 1 * q.val = q.val; omega
  | ⟨2, _⟩ => show win0_3.index t (2 : Fin 3) * 300 + 1 * d.val = d.val; omega

end Cert.KernelIdeal.Blocks

end
-- ==== Proof.Spec.lean ====
/-
  The segment mean, as one function of the interval table and the embedded rows.

  For a batch row `b`, a node `t` with interval `[lo, hi]` and a feature `d`, the result is

      ( ∑ₛ w(s) · E[b, s, d] ) / max ( ∑ₛ w(s), 1 ),      s = 0 … 2047,

  where the weight `w(s)` is `1` when exactly one of `s ≥ lo` and `s > hi` holds (both comparisons signed,
  on 32-bit words) and `0` otherwise; for `lo ≤ hi` that is the indicator of `lo ≤ s ≤ hi`.
  The 2048 positions are 8 consecutive blocks of 256; both sums are the sums of their 8 block shares, which
  only uses that addition on the extended reals is commutative and associative.
-/
import Idealize.ShloMosaic.PureOps.Ideal
import Idealize.ShloMosaic.PureOps.Ideal.Laws
import Idealize.ShloMosaic.Lib.ValueIdx
import proofs.«137302_j21079699489144_1_alg».proof.Proof.LibBlockSum

noncomputable section

namespace Cert.Seg

open Idealize.ShloMosaic Finset

/-- The interval test on 32-bit signed words at position `s`: `(s ≥ lo) xor (s > hi)`. -/
def inSeg (lo hi : BitVec 32) (s : ℕ) : BitVec 1 :=
  IntOp.xori (IntOp.cmpi .sge (BitVec.ofNat 32 s) lo) (IntOp.cmpi .sgt (BitVec.ofNat 32 s) hi)

/-- The weight of position `s`: the test's bit as an extended real, `0` or `1`. -/
def wt (lo hi : BitVec 32) (s : ℕ) : EReal := (((inSeg lo hi s).toNat : ℝ) : EReal)

/-- The floor of the divisor, `1.0`. -/
abbrev one : EReal := Ideal.ofBits .f32 0x3F800000#32

/-- The weighted sum of a column over all 2048 positions. -/
def num (lo hi : BitVec 32) (col : Fin 2048 → EReal) : EReal := ∑ s : Fin 2048, wt lo hi s.val * col s

/-- The number of positions inside the interval. -/
def den (lo hi : BitVec 32) : EReal := ∑ s : Fin 2048, wt lo hi s.val

/-- The segment mean of one column. -/
def mean (lo hi : BitVec 32) (col : Fin 2048 → EReal) : EReal := Ideal.div (num lo hi col) (max (den lo hi) one)

/-- Block `j`'s share of the weighted sum: positions `256 j … 256 j + 255`. -/
def numBlk (lo hi : BitVec 32) (col : Fin 2048 → EReal) (j : Fin 8) : EReal :=
  ∑ p : Fin 256, wt lo hi (p.val + 256 * j.val) * col (BlockSum.merged j p)

/-- Block `j`'s share of the count. -/
def denBlk (lo hi : BitVec 32) (j : Fin 8) : EReal := ∑ p : Fin 256, wt lo hi (p.val + 256 * j.val)

theorem num_eq_blocks (lo hi : BitVec 32) (col : Fin 2048 → EReal) : num lo hi col = ∑ j : Fin 8, numBlk lo hi col j :=
  BlockSum.sum_merged_of (n := 8) (d := 256) (fun s => wt lo hi s.val * col s) _ fun _ _ => rfl

theorem den_eq_blocks (lo hi : BitVec 32) : den lo hi = ∑ j : Fin 8, denBlk lo hi j :=
  BlockSum.sum_merged_of (n := 8) (d := 256) (fun s => wt lo hi s.val) _ fun _ _ => rfl

/-- The shares of the first `k` blocks (`k ≤ 8`; blocks past the eighth contribute nothing). -/
def numUpTo (lo hi : BitVec 32) (col : Fin 2048 → EReal) (k : ℕ) : EReal :=
  ∑ j ∈ range k, if h : j < 8 then numBlk lo hi col ⟨j, h⟩ else 0

def denUpTo (lo hi : BitVec 32) (k : ℕ) : EReal :=
  ∑ j ∈ range k, if h : j < 8 then denBlk lo hi ⟨j, h⟩ else 0

theorem numUpTo_zero (lo hi : BitVec 32) (col : Fin 2048 → EReal) : numUpTo lo hi col 0 = 0 := by simp [numUpTo]
theorem denUpTo_zero (lo hi : BitVec 32) : denUpTo lo hi 0 = 0 := by simp [denUpTo]

theorem numUpTo_succ (lo hi : BitVec 32) (col : Fin 2048 → EReal) (k : ℕ) (h : k < 8) :
    numUpTo lo hi col (k + 1) = numUpTo lo hi col k + numBlk lo hi col ⟨k, h⟩ := by
  unfold numUpTo; rw [sum_range_succ, dif_pos h]

theorem denUpTo_succ (lo hi : BitVec 32) (k : ℕ) (h : k < 8) :
    denUpTo lo hi (k + 1) = denUpTo lo hi k + denBlk lo hi ⟨k, h⟩ := by
  unfold denUpTo; rw [sum_range_succ, dif_pos h]

theorem numUpTo_eight (lo hi : BitVec 32) (col : Fin 2048 → EReal) : numUpTo lo hi col 8 = num lo hi col := by
  rw [num_eq_blocks, numUpTo, Finset.sum_range]
  exact Finset.sum_congr rfl fun j _ => by rw [dif_pos j.isLt]

theorem denUpTo_eight (lo hi : BitVec 32) : denUpTo lo hi 8 = den lo hi := by
  rw [den_eq_blocks, denUpTo, Finset.sum_range]
  exact Finset.sum_congr rfl fun j _ => by rw [dif_pos j.isLt]

/-- The whole result: entry `(b, t, d)` is the mean over node `t`'s interval of column `d` of batch row `b`. -/
def G (idx : (⟨3, ![8, 4095, 2]⟩ : Shape).Idx → BitVec 32) (E : (⟨3, ![8, 2048, 300]⟩ : Shape).Idx → EReal)
    (b : Fin 8) (t : Fin 4095) (d : Fin 300) : EReal :=
  mean (idx (ValueIdx.ix3 b t (0 : Fin 2))) (idx (ValueIdx.ix3 b t (1 : Fin 2))) (fun s => E (ValueIdx.ix3 b s d))

end Cert.Seg

end
-- ==== Proof.Payload.lean ====
/-
  The kernel body's seven payloads read at one index, as exact values.

  The two zero fills read 0; the count update reads the sum of its two operands; the final division reads the quotient
  by the count floored at 1; the interval test reads the specification's bit at position p + 256 j of block j; the
  count of a block reads the sum of the 256 weights; the accumulator update reads the old value plus the weighted sum
  of the block's rows.
-/
import proofs.«137302_j21079699489144_1_alg».proof.Proof.Gen.KernelIdeal.Skeleton
import proofs.«137302_j21079699489144_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-! ## Layout readings the library does not state -/

/-- An `[a, 1]` column broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

variable [Cert.KernelIdeal.Facts]

/-! ## The zero fills, the count update and the final division -/

/-- The accumulator's initial fill reads zero. -/
theorem pay3_apply (t : Fin 4095) (d : Fin 300) : k0_pay3 (F := Ideal) (ix3 (0 : Fin 1) t d) = 0 := by
  unfold k0_pay3
  refine (shapeCast_ab_1ab_apply _ _ (0 : Fin 1) t d).trans ?_
  exact Ideal.ofBits_zero_f32

/-- The count's initial fill reads zero. -/
theorem pay4_apply (t : Fin 4095) : k0_pay4 (F := Ideal) (ix2 (0 : Fin 1) t) = 0 := by
  unfold k0_pay4
  refine (congrFun (shapeCast_self _ _) _).trans ?_
  exact Ideal.ofBits_zero_f32

/-- The count update reads the stored count plus the block's count. -/
theorem pay1_apply (v33 v34 : Vec Ideal S1x4095 .f32) (t : Fin 4095) :
    k0_pay1 (F := Ideal) v33 v34 (ix2 (0 : Fin 1) t) = v34 (ix2 (0 : Fin 1) t) + v33 (ix2 (0 : Fin 1) t) := by
  unfold k0_pay1
  exact congrFun (shapeCast_self _ _) _

/-- The final division reads the accumulated sum over the count floored at one. -/
theorem pay2_apply (v42 : Vec Ideal S1x4095 .f32) (v46 : Vec Ideal S1x4095x300 .f32) (t : Fin 4095) (d : Fin 300) :
    k0_pay2 (F := Ideal) v42 v46 (ix3 (0 : Fin 1) t d)
      = Ideal.div (v46 (ix3 (0 : Fin 1) t d)) (max (v42 (ix2 (0 : Fin 1) t)) Cert.Seg.one) := by
  unfold k0_pay2
  refine (shapeCast_ab_1ab_apply _ _ (0 : Fin 1) t d).trans ?_
  refine (divf_apply _ _ _).trans ?_
  refine congrArg₂ Ideal.div (shapeCast_1ab_ab_apply _ _ t d) ?_
  refine (broadcastTo_a1_ab_apply _ _ t d).trans ?_
  exact congrArg₂ max (transpose_ix2_apply _ _ t (0 : Fin 1)) rfl

/-! ## The interval test -/

/-- The position word of row `p` of block `j`: `256 j` plus the row number is the word of `p + 256 j`. -/
theorem posWord (iv : ℕ) (j : Fin 8) (hj : iv = j.val) (p : Fin 256) :
    IntOp.addi (Scalar.muli (BitVec.ofNat 32 iv) 256#32) (BitVec.ofNat 32 p.val) = BitVec.ofNat 32 (p.val + 256 * j.val) := by
  subst hj
  show BitVec.ofNat 32 j.val * BitVec.ofNat 32 256 + BitVec.ofNat 32 p.val = _
  rw [BitVec.ofNat_add, BitVec.ofNat_mul, BitVec.add_comm, BitVec.mul_comm]

/-- The column of position words read at row `p`. -/
theorem posCol_apply (iv : ℕ) (j : Fin 8) (hj : iv = j.val) (h : S256x1.Iotas .tc 32 [0]) (p : Fin 256) :
    addi (broadcast S256x1 (Scalar.muli (BitVec.ofNat 32 iv) 256#32)) (iota .tc S256x1 32 [0] h) (ix2 p (0 : Fin 1))
      = BitVec.ofNat 32 (p.val + 256 * j.val) := by
  refine Eq.trans ?_ (posWord iv j hj p)
  show IntOp.addi _ (iota .tc S256x1 32 [0] h (ix2 p (0 : Fin 1))) = _
  exact congrArg (IntOp.addi _) (iota_single_apply .tc S256x1 32 0 h (ix2 p (0 : Fin 1)))

/-- The interval test of block `j` at row `p` and node `t` is the specification's bit at position `p + 256 j`. -/
theorem pay5_apply (i : grid0.Coords) (j : Fin 8) (hj : (i 1).val = j.val) (v3 v5 : Vec Ideal S1x1x4095 .i32)
    (p : Fin 256) (t : Fin 4095) :
    k0_pay5 (F := Ideal) i v3 v5 (ix2 p t)
      = Cert.Seg.inSeg (v3 (ix3 (0 : Fin 1) (0 : Fin 1) t)) (v5 (ix3 (0 : Fin 1) (0 : Fin 1) t)) (p.val + 256 * j.val) := by
  unfold k0_pay5 Cert.Seg.inSeg
  refine congrArg₂ IntOp.xori (congrArg₂ (IntOp.cmpi .sge) ?_ ?_) (congrArg₂ (IntOp.cmpi .sgt) ?_ ?_)
  · exact (broadcastTo_a1_ab_apply _ _ p t).trans (posCol_apply _ j hj _ p)
  · exact (broadcastTo_1b_ab_apply _ _ p t).trans (shapeCast_1ab_ab_apply _ _ (0 : Fin 1) t)
  · exact (broadcastTo_a1_ab_apply _ _ p t).trans (posCol_apply _ j hj _ p)
  · exact (broadcastTo_1b_ab_apply _ _ p t).trans (shapeCast_1ab_ab_apply _ _ (0 : Fin 1) t)

/-! ## The weights: the test's bit widened, converted and summed -/

/-- A bit widened to 32 bits and converted from a signed integer reads its value, `0` or `1`. -/
theorem sitofp_bit (b : BitVec 1) :
    FloatOps.sitofp (F := Ideal) .f32 (b.setWidth 32) = (((b.toNat : ℝ)) : EReal) := by
  have hb : (b.setWidth 32).toInt = (b.toNat : ℤ) := by
    rcases BitVec.eq_zero_or_eq_one b with h | h <;> subst h <;> decide
  show (((b.setWidth 32).toInt : ℝ) : EReal) = _
  rw [hb, Int.cast_natCast]

/-- The converted test of block `j` at row `p` and node `t` is the weight of position `p + 256 j`. -/
theorem wt_apply (i : grid0.Coords) (j : Fin 8) (hj : (i 1).val = j.val) (v3 v5 : Vec Ideal S1x1x4095 .i32)
    (h : 1 < 32) (p : Fin 256) (t : Fin 4095) :
    (sitofp (F := Ideal) .f32 (extui 32 (k0_pay5 (F := Ideal) i v3 v5) h) : FVec Ideal S256x4095 .f32) (ix2 p t)
      = Cert.Seg.wt (v3 (ix3 (0 : Fin 1) (0 : Fin 1) t)) (v5 (ix3 (0 : Fin 1) (0 : Fin 1) t)) (p.val + 256 * j.val) := by
  show FloatOps.sitofp (F := Ideal) .f32 ((k0_pay5 (F := Ideal) i v3 v5 (ix2 p t)).setWidth 32) = _
  rw [pay5_apply i j hj v3 v5 p t]
  exact sitofp_bit _

/-- The index over node `t` with row `p` inserted on the summed axis is `(p, t)`. -/
theorem lift_rows (h : S256x4095.Reduces [0] S4095) (t : Fin 4095) (p : Fin 256) : h.lift (ix1 t) p = ix2 p t := by
  funext c; apply Fin.ext
  match c with
  | ⟨0, _⟩ => rfl
  | ⟨1, _⟩ => rfl

/-- The block's count at node `t` is the sum of the 256 weights. -/
theorem pay7_apply (i : grid0.Coords) (j : Fin 8) (hj : (i 1).val = j.val) (v3 v5 : Vec Ideal S1x1x4095 .i32) (t : Fin 4095) :
    k0_pay7 (F := Ideal) i v3 v5 (ix2 (0 : Fin 1) t)
      = ∑ p : Fin 256, Cert.Seg.wt (v3 (ix3 (0 : Fin 1) (0 : Fin 1) t)) (v5 (ix3 (0 : Fin 1) (0 : Fin 1) t)) (p.val + 256 * j.val) := by
  unfold k0_pay7
  refine (shapeCast_a_1a_apply _ _ (0 : Fin 1) t).trans ?_
  refine (Ideal.multiReduction_add_single _ _ _ _ _ (ix1 t)).trans ?_
  show ∑ p : Fin 256, _ = _
  refine Finset.sum_congr rfl fun p _ => ?_
  exact (congrArg _ (lift_rows _ t p)).trans (wt_apply i j hj v3 v5 _ p t)

/-! ## The accumulator update: the weights contracted with the block's rows -/

/-- The left operand's index at output `(t, d)` and contraction coordinate `p` is `(p, t)`. -/
theorem dot_lhsIdx (t : Fin 4095) (d : Fin 300) (p : Fin 256) :
    dot_S256x4095_S256x300_S4095x300_0_0_1_1_n_n.lhsIdx (ix2 t d)
      ((contrEquiv1 dot_S256x4095_S256x300_S4095x300_0_0_1_1_n_n 256 rfl rfl).symm p) = ix2 p t := by
  funext ax; apply Fin.ext
  match ax with
  | ⟨0, _⟩ =>
    exact (DotDims.lhsIdx_val_of_single dot_S256x4095_S256x300_S4095x300_0_0_1_1_n_n (cl := 0) rfl (ix2 t d) _).trans
      (contrEquiv1_symm_val dot_S256x4095_S256x300_S4095x300_0_0_1_1_n_n 256 rfl rfl p)
  | ⟨1, _⟩ => rfl

/-- The right operand's index at output `(t, d)` and contraction coordinate `p` is `(p, d)`. -/
theorem dot_rhsIdx (t : Fin 4095) (d : Fin 300) (p : Fin 256) :
    dot_S256x4095_S256x300_S4095x300_0_0_1_1_n_n.rhsIdx (ix2 t d)
      ((contrEquiv1 dot_S256x4095_S256x300_S4095x300_0_0_1_1_n_n 256 rfl rfl).symm p) = ix2 p d := by
  funext ax; apply Fin.ext
  match ax with
  | ⟨0, _⟩ =>
    exact (DotDims.rhsIdx_val_of_single dot_S256x4095_S256x300_S4095x300_0_0_1_1_n_n (cr := 0) rfl (ix2 t d) _).trans
      (contrEquiv1_symm_val dot_S256x4095_S256x300_S4095x300_0_0_1_1_n_n 256 rfl rfl p)
  | ⟨1, _⟩ => rfl

/-- The accumulator update at `(t, d)`: the stored value plus the weighted sum of column `d` over the block's rows. -/
theorem pay6_apply (i : grid0.Coords) (j : Fin 8) (hj : (i 1).val = j.val) (v3 v5 : Vec Ideal S1x1x4095 .i32)
    (v18 : Vec Ideal S1x256x300 .bf16) (v24 : Vec Ideal S1x4095x300 .f32) (t : Fin 4095) (d : Fin 300) :
    k0_pay6 (F := Ideal) i v3 v5 v18 v24 (ix3 (0 : Fin 1) t d)
      = v24 (ix3 (0 : Fin 1) t d)
        + ∑ p : Fin 256, Cert.Seg.wt (v3 (ix3 (0 : Fin 1) (0 : Fin 1) t)) (v5 (ix3 (0 : Fin 1) (0 : Fin 1) t)) (p.val + 256 * j.val)
            * v18 (ix3 (0 : Fin 1) p d) := by
  unfold k0_pay6
  refine (shapeCast_ab_1ab_apply _ _ (0 : Fin 1) t d).trans ?_
  refine (addf_apply _ _ _).trans ?_
  refine congrArg₂ (· + ·) (shapeCast_1ab_ab_apply _ _ t d) ?_
  refine (Ideal.matmul_constant_zero_apply dot_S256x4095_S256x300_S4095x300_0_0_1_1_n_n none _ _ (ix2 t d)).trans ?_
  refine (Equiv.sum_comp (contrEquiv1 dot_S256x4095_S256x300_S4095x300_0_0_1_1_n_n 256 rfl rfl).symm _).symm.trans ?_
  refine Finset.sum_congr rfl fun p _ => ?_
  refine congrArg₂ (· * ·) ?_ ?_
  · exact (congrArg _ (dot_lhsIdx t d p)).trans (wt_apply i j hj v3 v5 _ p t)
  · exact (congrArg _ (dot_rhsIdx t d p)).trans (shapeCast_1ab_ab_apply _ _ p d)

end Cert.KernelIdeal.Pay

end
-- ==== Proof.Induct.lean ====
/-
  The accumulation across the eight tiles of a batch row, at the exact values.

  Write `lo`, `hi` for node `q`'s interval in batch row `b` and `col` for feature `d`'s column of that row's embedded
  rows.  After tile `k` of the row the count row holds, at `q`, the number of positions of tiles `0 … k` inside the
  interval, and (before the last tile) the output block holds at `(q, d)` the weighted sum of `col` over those tiles'
  positions.  After the last tile the block holds the weighted sum over all 2048 positions divided by the larger of the
  full count and one: the segment mean.  The proof is an induction on the grid point; each step adds one tile's share.
-/
import proofs.«137302_j21079699489144_1_alg».proof.Proof.Steps
import proofs.«137302_j21079699489144_1_alg».proof.Proof.Blocks
import proofs.«137302_j21079699489144_1_alg».proof.Proof.Payload
import proofs.«137302_j21079699489144_1_alg».proof.Proof.Spec

set_option maxRecDepth 16384

noncomputable section

open Idealize.ShloMosaic Idealize.ShloMosaic.TcCoe Idealize.SL.Sem Idealize.ShloMosaic.ValueIdx

namespace Cert.KernelIdeal.Induct

open Cert.KernelIdeal Cert.KernelIdeal.Gen Cert.KernelIdeal.Blocks

variable (m : (ℓ : Loc nD τ sig) → Buf (Elt Ideal) ℓ)

/-- Node `q`'s lower bound in batch row `b`, as the region finds the bounds. -/
def lo (c : Dev nD) (b : Fin 8) (q : Fin 4095) : BitVec 32 :=
  (V m c main_v41 : S8x1x4095.Idx → BitVec 32) (ix3 b (0 : Fin 1) q)

/-- Node `q`'s upper bound in batch row `b`. -/
def hi (c : Dev nD) (b : Fin 8) (q : Fin 4095) : BitVec 32 :=
  (V m c main_v44 : S8x1x4095.Idx → BitVec 32) (ix3 b (0 : Fin 1) q)

/-- Feature `d`'s column of batch row `b`'s embedded rows. -/
def col (c : Dev nD) (b : Fin 8) (d : Fin 300) : Fin 2048 → EReal :=
  fun s => (V m c main_v38 : S8x2048x300.Idx → EReal) (ix3 b s d)

theorem tile_of (t : Fin cfg0.N) : ((grid0.coords t) 1).val = (tile t).val := (idx_facts t).2.1

/-- The tile's count at a point is the tile's share of the count. -/
theorem tile_count (c : Dev nD) (t : Fin cfg0.N) (q : Fin 4095) :
    k0_pay7 (F := Ideal) (grid0.coords t) (iblk m c 0 t) (iblk m c 1 t) (ix2 (0 : Fin 1) q)
      = Seg.denBlk (lo m c (row t) q) (hi m c (row t) q) (tile t) := by
  rw [Pay.pay7_apply (grid0.coords t) (tile t) (tile_of t) (iblk m c 0 t) (iblk m c 1 t) q, lo_blk m c t q, hi_blk m c t q]
  rfl

/-- The tile's product added onto a block is the tile's share of the weighted sum added onto it. -/
theorem tile_prod (c : Dev nD) (t : Fin cfg0.N) (acc : Vec Ideal S1x4095x300 .f32) (q : Fin 4095) (d : Fin 300) :
    k0_pay6 (F := Ideal) (grid0.coords t) (iblk m c 0 t) (iblk m c 1 t) (iblk m c 2 t) acc (ix3 (0 : Fin 1) q d)
      = acc (ix3 (0 : Fin 1) q d) + Seg.numBlk (lo m c (row t) q) (hi m c (row t) q) (col m c (row t) d) (tile t) := by
  rw [Pay.pay6_apply (grid0.coords t) (tile t) (tile_of t) (iblk m c 0 t) (iblk m c 1 t) (iblk m c 2 t) acc q d,
    lo_blk m c t q, hi_blk m c t q]
  refine congrArg (acc (ix3 (0 : Fin 1) q d) + ·) (Finset.sum_congr rfl fun p _ => ?_)
  rw [emb_blk m c t p d]
  rfl

/-- The count row after the first tile of a row. -/
theorem den_first (c : Dev nD) (t : Fin cfg0.N) (h0 : t.val % 8 = 0) (q : Fin 4095) :
    (outsAt0 m c t.val t.isLt).2 (ix2 (0 : Fin 1) q)
      = 0 + Seg.denBlk (lo m c (row t) q) (hi m c (row t) q) (tile t) := by
  rw [Steps.first_cnt m c t h0 (by omega), Pay.pay1_apply, Pay.pay4_apply, tile_count m c t q]

/-- The output block after the first tile of a row. -/
theorem num_first (c : Dev nD) (t : Fin cfg0.N) (h0 : t.val % 8 = 0) (q : Fin 4095) (d : Fin 300) :
    (outsAt0 m c t.val t.isLt).1 (ix3 (0 : Fin 1) q d)
      = 0 + Seg.numBlk (lo m c (row t) q) (hi m c (row t) q) (col m c (row t) d) (tile t) := by
  rw [Steps.first_out m c t h0 (by omega), tile_prod m c t _ q d, Pay.pay3_apply]

/-- The count row after a later tile: one more share. -/
theorem den_next (c : Dev nD) (t : Fin cfg0.N) (h0 : ¬t.val % 8 = 0) (q : Fin 4095) :
    (outsAt0 m c t.val t.isLt).2 (ix2 (0 : Fin 1) q)
      = (outsAt0 m c (t.val - 1) (Nat.lt_of_le_of_lt (Nat.sub_le _ _) t.isLt)).2 (ix2 (0 : Fin 1) q) + Seg.denBlk (lo m c (row t) q) (hi m c (row t) q) (tile t) := by
  by_cases h1 : t.val % 8 = 7
  · rw [Steps.last_cnt m c t h0 h1, Pay.pay1_apply, tile_count m c t q]
  · rw [Steps.middle_cnt m c t h0 h1, Pay.pay1_apply, tile_count m c t q]

/-- The output block after a middle tile: one more share. -/
theorem num_middle (c : Dev nD) (t : Fin cfg0.N) (h0 : ¬t.val % 8 = 0) (h1 : ¬t.val % 8 = 7) (q : Fin 4095) (d : Fin 300) :
    (outsAt0 m c t.val t.isLt).1 (ix3 (0 : Fin 1) q d)
      = (outsAt0 m c (t.val - 1) (Nat.lt_of_le_of_lt (Nat.sub_le _ _) t.isLt)).1 (ix3 (0 : Fin 1) q d) + Seg.numBlk (lo m c (row t) q) (hi m c (row t) q) (col m c (row t) d) (tile t) := by
  rw [Steps.middle_out m c t h0 h1, tile_prod m c t _ q d]

/-- The output block after the last tile: the last share added, then the division by the floored count. -/
theorem out_last (c : Dev nD) (t : Fin cfg0.N) (h0 : ¬t.val % 8 = 0) (h1 : t.val % 8 = 7) (q : Fin 4095) (d : Fin 300) :
    (outsAt0 m c t.val t.isLt).1 (ix3 (0 : Fin 1) q d)
      = Ideal.div
          ((outsAt0 m c (t.val - 1) (Nat.lt_of_le_of_lt (Nat.sub_le _ _) t.isLt)).1 (ix3 (0 : Fin 1) q d) + Seg.numBlk (lo m c (row t) q) (hi m c (row t) q) (col m c (row t) d) (tile t))
          (max ((outsAt0 m c (t.val - 1) (Nat.lt_of_le_of_lt (Nat.sub_le _ _) t.isLt)).2 (ix2 (0 : Fin 1) q) + Seg.denBlk (lo m c (row t) q) (hi m c (row t) q) (tile t)) Seg.one) := by
  rw [Steps.last_out m c t h0 h1, Pay.pay2_apply, Pay.pay1_apply, tile_count m c t q, tile_prod m c t _ q d]

/-- THE INVARIANT, by induction on the grid point. -/
theorem inv (c : Dev nD) : ∀ (n : ℕ) (h : n < cfg0.N) (q : Fin 4095) (d : Fin 300),
    (outsAt0 m c n h).2 (ix2 (0 : Fin 1) q)
        = Seg.denUpTo (lo m c (row ⟨n, h⟩) q) (hi m c (row ⟨n, h⟩) q) (n % 8 + 1)
    ∧ (n % 8 ≠ 7 → (outsAt0 m c n h).1 (ix3 (0 : Fin 1) q d)
        = Seg.numUpTo (lo m c (row ⟨n, h⟩) q) (hi m c (row ⟨n, h⟩) q) (col m c (row ⟨n, h⟩) d) (n % 8 + 1))
    ∧ (n % 8 = 7 → (outsAt0 m c n h).1 (ix3 (0 : Fin 1) q d)
        = Seg.mean (lo m c (row ⟨n, h⟩) q) (hi m c (row ⟨n, h⟩) q) (col m c (row ⟨n, h⟩) d))
  | 0, h, q, d => by
    have ht : tile ⟨0, h⟩ = ⟨0, by decide⟩ := Fin.ext rfl
    refine ⟨?_, fun _ => ?_, fun h7 => absurd h7 (by decide)⟩
    · rw [show (0 % 8 + 1) = 0 + 1 from rfl, Seg.denUpTo_succ _ _ 0 (by decide), Seg.denUpTo_zero, ← ht]
      exact den_first m c ⟨0, h⟩ rfl q
    · rw [show (0 % 8 + 1) = 0 + 1 from rfl, Seg.numUpTo_succ _ _ _ 0 (by decide), Seg.numUpTo_zero, ← ht]
      exact num_first m c ⟨0, h⟩ rfl q d
  | n + 1, h, q, d => by
    have hN : n + 1 < 64 := lt_of_lt_of_eq h N_0
    by_cases h0 : (n + 1) % 8 = 0
    · have ht : tile ⟨n + 1, h⟩ = ⟨0, by decide⟩ := Fin.ext h0
      refine ⟨?_, fun _ => ?_, fun h7 => absurd h7 (by omega)⟩
      · rw [h0, Seg.denUpTo_succ _ _ 0 (by decide), Seg.denUpTo_zero, ← ht]
        exact den_first m c ⟨n + 1, h⟩ h0 q
      · rw [h0, Seg.numUpTo_succ _ _ _ 0 (by decide), Seg.numUpTo_zero, ← ht]
        exact num_first m c ⟨n + 1, h⟩ h0 q d
    · obtain ⟨ihd, ihn, -⟩ := inv c n (Nat.lt_of_succ_lt h) q d
      have hk : (n + 1) % 8 = n % 8 + 1 := by omega
      have hlt : n % 8 + 1 < 8 := by omega
      have hrow : row ⟨n + 1, h⟩ = row ⟨n, Nat.lt_of_succ_lt h⟩ := Fin.ext (by show (n + 1) / 8 = n / 8; omega)
      have ht : tile ⟨n + 1, h⟩ = ⟨n % 8 + 1, hlt⟩ := Fin.ext hk
      have ihn' := ihn (by omega)
      have ed := den_next m c ⟨n + 1, h⟩ h0 q
      rw [ht, hrow] at ed
      have ed' : (outsAt0 m c (n + 1) h).2 (ix2 (0 : Fin 1) q)
          = Seg.denUpTo (lo m c (row ⟨n, Nat.lt_of_succ_lt h⟩) q) (hi m c (row ⟨n, Nat.lt_of_succ_lt h⟩) q) (n % 8 + 1 + 1) := by
        rw [Seg.denUpTo_succ _ _ _ hlt, ← ihd]; exact ed
      refine ⟨?_, fun h7 => ?_, fun h7 => ?_⟩
      · rw [hrow, hk]; exact ed'
      · have en := num_middle m c ⟨n + 1, h⟩ h0 h7 q d
        rw [ht, hrow] at en
        rw [hrow, hk, Seg.numUpTo_succ _ _ _ _ hlt, ← ihn']; exact en
      · have eo := out_last m c ⟨n + 1, h⟩ h0 h7 q d
        rw [ht, hrow] at eo
        have h8 : n % 8 + 1 + 1 = 8 := by omega
        rw [hrow, Seg.mean, ← Seg.numUpTo_eight, ← Seg.denUpTo_eight, ← h8, Seg.numUpTo_succ _ _ _ _ hlt,
          Seg.denUpTo_succ _ _ _ hlt, ← ihn', ← ihd]
        exact eo

end Cert.KernelIdeal.Induct

end
-- ==== Proof.HostIn.lean ====
/-
  The arrays the region's three input windows read, in terms of the program's arguments.

  The two interval windows read the lower and the upper bounds laid out as `8 × 1 × 4095`: entry `(b, 0, q)` is
  column `0`, respectively `1`, of the interval table at `(b, q)`.  The embedding window reads the gathered rows,
  narrowed to sixteen bits.
-/
import proofs.«137302_j21079699489144_1_alg».proof.Proof.Gen.KernelIdeal.Frame
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem Idealize.ShloMosaic.ValueIdx Idealize.ShloMosaic.StableHlo

namespace Cert.KernelIdeal.HostIn

open Cert.KernelIdeal Cert.KernelIdeal.Gen

variable {F : FTy → Type} [FloatOps F]
variable (m : (ℓ : Loc nD τ sig) → Buf (Elt F) ℓ)

/-- Column `k` of the interval table, laid out as `8 × 1 × 4095`. -/
def boundRow (k : Fin 2) (hs : S8x4095x2.Slices ![0, 0, k.val] S8x4095x1) (idx : IVec S8x4095x2 32) : IVec S8x1x4095 32 :=
  broadcastInDim S8x1x4095 ![0, 2] bcast_S8x4095_S8x1x4095_0_2
    (shapeCast S8x4095 (extractStridedSlice S8x4095x1 ![0, 0, k.val] idx hs) shapeCasts_S8x4095x1_S8x4095)

/-- Read at `(b, 0, q)`: the table's entry `(b, q, k)`. -/
theorem boundRow_apply (k : Fin 2) (hs : S8x4095x2.Slices ![0, 0, k.val] S8x4095x1) (idx : IVec S8x4095x2 32)
    (b : Fin 8) (q : Fin 4095) : boundRow k hs idx (ix3 b (0 : Fin 1) q) = idx (ix3 b q k) := by
  unfold boundRow
  rw [broadcastInDim_apply _ _ _ (ix3 b (0 : Fin 1) q) (ix2 b q) (by
    intro a; match a with
    | ⟨0, _⟩ => rfl
    | ⟨1, _⟩ => rfl)]
  rw [shapeCast_apply _ _ (ix2 b q) (ix3 b q (0 : Fin 1)) (by
    rw [Shape.rowMajor_val_three, Shape.rowMajor_val_two]
    show (b.val * 4095 + q.val) * 1 + 0 = b.val * 4095 + q.val
    omega)]
  exact extractStridedSlice_apply _ _ _ _ _ (by
    intro a; match a with
    | ⟨0, _⟩ => exact (Nat.zero_add _).symm
    | ⟨1, _⟩ => exact (Nat.zero_add _).symm
    | ⟨2, _⟩ => exact (Nat.add_zero _).symm)

/-- The lower-bound window's array. -/
theorem lo_term (c : Dev nD) :
    (V m c main_v41 : S8x1x4095.Idx → BitVec 32)
      = boundRow 0 slices_S8x4095x2_S8x4095x1_0_0_0 (m ((c : Thread nD τ).loc main_arg1)) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results
  rfl

/-- The upper-bound window's array. -/
theorem hi_term (c : Dev nD) :
    (V m c main_v44 : S8x1x4095.Idx → BitVec 32)
      = boundRow 1 slices_S8x4095x2_S8x4095x1_0_0_1 (m ((c : Thread nD τ).loc main_arg1)) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results
  rfl

theorem lo_apply (c : Dev nD) (b : Fin 8) (q : Fin 4095) :
    (V m c main_v41 : S8x1x4095.Idx → BitVec 32) (ix3 b (0 : Fin 1) q)
      = m ((c : Thread nD τ).loc main_arg1) (ix3 b q (0 : Fin 2)) := by
  rw [lo_term m c]; exact boundRow_apply 0 _ _ b q

theorem hi_apply (c : Dev nD) (b : Fin 8) (q : Fin 4095) :
    (V m c main_v44 : S8x1x4095.Idx → BitVec 32) (ix3 b (0 : Fin 1) q)
      = m ((c : Thread nD τ).loc main_arg1) (ix3 b q (1 : Fin 2)) := by
  rw [hi_term m c]; exact boundRow_apply 1 _ _ b q

end Cert.KernelIdeal.HostIn

end
-- ==== Proof.Final.lean ====
/-
  The result array of the kernel, as one function of the arrays its windows read.

  The output window's block is a whole batch row, written back once per row, after the row's last tile; by the
  invariant it then holds the row's segment means.  The eight write-backs cover the `8 × 4095 × 300` array, so after the
  run entry `(b, q, d)` is the mean, over node `q`'s interval in row `b`, of column `d` of the row's embedded rows.
-/
import proofs.«137302_j21079699489144_1_alg».proof.Proof.Gen.KernelIdeal.Value
import proofs.«137302_j21079699489144_1_alg».proof.Proof.Induct
import proofs.«137302_j21079699489144_1_alg».proof.Proof.HostIn

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen

variable (m : (ℓ : Loc nD τ sig) → Buf (Elt Ideal) ℓ) (ρ : Dev nD → PrngReg)

/-- Entry `(b, q, d)` of the result. -/
def resAt (c : Dev nD) (b : Fin 8) (q : Fin 4095) (d : Fin 300) : EReal :=
  Seg.mean (Induct.lo m c b q) (Induct.hi m c b q) (Induct.col m c b d)

/-- The result array. -/
def res (c : Dev nD) : S8x4095x300.Idx → EReal := fun i => resAt m c (i 0) (i 1) (i 2)

/-- What a row's last tile writes back is the row's block of the result. -/
theorem flushed_eq (c : Dev nD) (t : Fin cfg0.N) (hf : (cfg0.win 3).flush t = true) :
    (dats m 0 c).flushed 3 t = ((cfg0.win 3).blk t).view.read (Elt Ideal) (res m c) := by
  have h7 : t.val % 8 = 7 := (flush0_3 t).mp hf
  have key : ∀ j : S1x4095x300.Idx,
      (outsAt0 m c t.val t.isLt).1 j = resAt m c (Blocks.row t) (j 1) (j 2) := by
    intro j
    obtain ⟨z, q, d, rfl⟩ : ∃ (z : Fin 1) (q : Fin 4095) (d : Fin 300), j = ix3 z q d := ⟨j 0, j 1, j 2, eq_ix3 j⟩
    obtain rfl : z = 0 := Subsingleton.elim _ _
    exact (Induct.inv m c t.val t.isLt q d).2.2 h7
  obtain ⟨-, -, -, -, -, -, -, -, -, -, -, e0, e1, e2⟩ := Blocks.idx_facts t
  rw [Value.flushed3]
  generalize (outsAt0 m c t.val t.isLt).1 = X at key ⊢
  generalize hRdef : res m c = R
  funext y
  rw [View.read_apply]
  have hy0 : (y 0).val < 1 := (y 0).isLt
  -- the entry of the result array this block entry sits at, and the block entry itself, by name
  have b0 : (((cfg0.win 3).blk t).view.emb y) 0 = Blocks.row t :=
    Fin.ext (by show win0_3.index t (0 : Fin 3) * 1 + 1 * (y 0).val = t.val / 8; omega)
  have b1 : ((((cfg0.win 3).blk t).view.emb y) 1).val = (y 1).val := by
    show win0_3.index t (1 : Fin 3) * 4095 + 1 * (y 1).val = (y 1).val; omega
  have b2 : ((((cfg0.win 3).blk t).view.emb y) 2).val = (y 2).val := by
    show win0_3.index t (2 : Fin 3) * 300 + 1 * (y 2).val = (y 2).val; omega
  have hj : ∃ j0 : S1x4095x300.Idx, j0 = (cfg0.win 3).xinj (grid0.coords t) y := ⟨_, rfl⟩
  obtain ⟨j0, hj0⟩ := hj
  have c1 : (j0 1).val = (y 1).val := by rw [hj0]
  have c2 : (j0 2).val = (y 2).val := by rw [hj0]
  have hL : (cfg0.win 3).cut (grid0.coords t) X y = X j0 := by rw [hj0]
  obtain ⟨i0, hi0⟩ : ∃ i0 : S8x4095x300.Idx, i0 = ((cfg0.win 3).blk t).view.emb y := ⟨_, rfl⟩
  rw [← hi0] at b0 b1 b2 ⊢
  generalize (cfg0.win 3).cut (grid0.coords t) X y = v at hL ⊢
  have a1 : i0 1 = j0 1 := Fin.ext (b1.trans c1.symm)
  have a2 : i0 2 = j0 2 := Fin.ext (b2.trans c2.symm)
  have hR : R i0 = resAt m c (Blocks.row t) (j0 1) (j0 2) := by
    rw [← hRdef]
    unfold res
    rw [b0, a1, a2]
  have h1 : (X j0 : EReal) = R i0 := by rw [hR]; exact key j0
  exact hL.trans h1

/-- The array after the run. -/
theorem final (c : Dev nD) : (dats m 0 c).arrAt 3 cfg0.N = res m c :=
  (dats m 0 c).arrAt_eq_of_cover 3 (res m c) (flushed_eq m c) fun i => by
    have hi0 : (i 0).val < 8 := (i 0).isLt
    have hi1 : (i 1).val < 4095 := (i 1).isLt
    have hi2 : (i 2).val < 300 := (i 2).isLt
    have hN : 8 * (i 0).val + 7 < cfg0.N := by rw [show cfg0.N = 64 from N_0]; omega
    obtain ⟨-, -, -, -, -, -, -, -, -, -, -, e0, e1, e2⟩ := Blocks.idx_facts ⟨8 * (i 0).val + 7, hN⟩
    have e0' : win0_3.index ⟨8 * (i 0).val + 7, hN⟩ (0 : Fin 3) = (8 * (i 0).val + 7) / 8 := e0
    refine ⟨⟨8 * (i 0).val + 7, hN⟩, (flush0_3 _).mpr (by show (8 * (i 0).val + 7) % 8 = 7; omega), ?_⟩
    show i ∈ ((View.whole main_v45).slice (win0_3.rect ⟨8 * (i 0).val + 7, hN⟩)).set
    rw [View.set_slice_whole, Rect.mem_set_unit]
    intro a
    match a with
    | ⟨0, _⟩ =>
      show win0_3.index ⟨8 * (i 0).val + 7, hN⟩ (0 : Fin 3) * 1 ≤ (i 0).val ∧ (i 0).val < win0_3.index ⟨8 * (i 0).val + 7, hN⟩ (0 : Fin 3) * 1 + 1
      omega
    | ⟨1, _⟩ =>
      show win0_3.index ⟨8 * (i 0).val + 7, hN⟩ (1 : Fin 3) * 4095 ≤ (i 1).val ∧ (i 1).val < win0_3.index ⟨8 * (i 0).val + 7, hN⟩ (1 : Fin 3) * 4095 + 4095
      omega
    | ⟨2, _⟩ =>
      show win0_3.index ⟨8 * (i 0).val + 7, hN⟩ (2 : Fin 3) * 300 ≤ (i 2).val ∧ (i 2).val < win0_3.index ⟨8 * (i 0).val + 7, hN⟩ (2 : Fin 3) * 300 + 300
      omega

/-- In terms of the interval table argument and the embedding window's array: the specification's function. -/
theorem res_eq (c : Dev nD) :
    res m c = fun i => Seg.G (m ((c : Thread nD τ).loc main_arg1)) (V m c main_v38 : S8x2048x300.Idx → EReal) (i 0) (i 1) (i 2) := by
  funext i
  unfold res resAt Seg.G Induct.lo Induct.hi
  rw [HostIn.lo_apply m c (i 0) (i 1), HostIn.hi_apply m c (i 0) (i 1)]
  rfl

/-- The run, read: the result array at the specification's function, the arguments unchanged. -/
theorem run : θ_run defs (onTc (τ := τ) (main (F := Ideal))) ⟨m, fun _ => 0, ρ⟩ fun r => ∀ c : Dev nD,
      r.2.mem ((c : Thread nD τ).loc main_v45)
        = (fun i => Seg.G (m ((c : Thread nD τ).loc main_arg1)) (V m c main_v38 : S8x2048x300.Idx → EReal) (i 0) (i 1) (i 2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (res_eq m c)), (h c).2⟩)
    (Value.run_blocks m ρ)

end Cert.KernelIdeal.Final

end
-- ==== Proof.RefHead.lean ====
/-
  The first stretch of the reference, as three named terms.

  `leaves x idx` is the table of leaf tokens: row `b` starts as all ones; every position `t` of `x` whose
  interval `idx[b, t, ·]` is a single point (`idx[b, t, 0] = idx[b, t, 1]`) and whose token is not `1` is a leaf; the
  leaves of a row are numbered `0, 1, 2, …` in order (a running count less one), and the token `x[b, t]` of leaf
  number `k` is written at `(b, k)`.  Positions that are not leaves are sent to column `2048`, outside the table,
  where the scatter drops them.  `rows lv` turns the tokens into row numbers of the embedding table (a negative
  token counted from its end) and `emb W x idx` gathers those rows of `W`.
-/
import proofs.«137302_j21079699489144_1_alg».proof.ReferenceIdeal

noncomputable section

namespace Cert.ReferenceIdeal.Head

open Cert.ReferenceIdeal Idealize.ShloMosaic

variable {F : FTy → Type} [FloatOps F] [Facts]
open Facts₀ Facts

/-- Column `0` of the interval table as an `8 × 4095` table. -/
def lo (idx : IVec S8x4095x2 32) : IVec S8x4095 32 :=
  shapeCast S8x4095 (extractStridedSlice S8x4095x1 ![0, 0, 0] idx slices_S8x4095x2_S8x4095x1_0_0_0)
    shapeCasts_S8x4095x1_S8x4095

/-- Column `1` of the interval table as an `8 × 4095` table. -/
def hi (idx : IVec S8x4095x2 32) : IVec S8x4095 32 :=
  shapeCast S8x4095 (extractStridedSlice S8x4095x1 ![0, 0, 1] idx slices_S8x4095x2_S8x4095x1_0_0_1)
    shapeCasts_S8x4095x1_S8x4095

/-- The leaf bit: the interval is one point and the token is not `1`. -/
def isLeaf (x : IVec S8x4095 32) (idx : IVec S8x4095x2 32) : IVec S8x4095 1 :=
  andi (cmpi .eq (lo idx) (hi idx))
    (cmpi .ne x (broadcastInDim S8x4095 ![] bcast_S_S8x4095 (constantI S_ 32 1#32)))

/-- The running count of leaves along a row, less one: the number of a leaf within its row. -/
def leafNo (x : IVec S8x4095 32) (idx : IVec S8x4095x2 32) : IVec S8x4095 32 :=
  subi
    (Host.reduceWindow IntOp.addi ![1, 4095] ![1, 1] ![0, 4094] ![0, 0]
      (extui 32 (isLeaf x idx) natLt_1_32)
      (broadcastInDim S_ ![] bcast_S_S_ (constantI S_ 32 0#32))
      reduceWindows_S8x4095_S8x4095_w1s1p0_0_w4095s1p4094_0 h_S_)
    (broadcastInDim S8x4095 ![] bcast_S_S8x4095 (constantI S_ 32 1#32))

/-- The column a position writes to: its leaf number, or `2048` (outside the table) when it is no leaf. -/
def col (x : IVec S8x4095 32) (idx : IVec S8x4095x2 32) : IVec S8x4095 32 :=
  select (isLeaf x idx) (leafNo x idx)
    (broadcastInDim S8x4095 ![] bcast_S_S8x4095 (id (constantI S_ 32 2048#32)))

/-- The same column with a negative one counted from the end of the row. -/
def colWrapped (x : IVec S8x4095 32) (idx : IVec S8x4095x2 32) : IVec S8x4095 32 :=
  select
    (cmpi .slt (col x idx) (broadcastInDim S8x4095 ![] bcast_S_S8x4095 (constantI S_ 32 0#32)))
    (addi (col x idx) (broadcastInDim S8x4095 ![] bcast_S_S8x4095 (constantI S_ 32 2048#32)))
    (col x idx)

/-- The row numbers `0 … 7` as an `8 × 1` table. -/
def rowIota : IVec S8x1 32 :=
  broadcastInDim S8x1 ![0] bcast_S8_S8x1_0 (iotaInDim S8 32 0)

/-- The same with a negative one counted from the end (none is). -/
def rowWrapped : IVec S8x1 32 :=
  select
    (cmpi .slt rowIota (broadcastInDim S8x1 ![] bcast_S_S8x1 (constantI S_ 32 0#32)))
    (addi rowIota (broadcastInDim S8x1 ![] bcast_S_S8x1 (constantI S_ 32 8#32)))
    rowIota

/-- Where each position writes: the pair (row, column). -/
def target (x : IVec S8x4095 32) (idx : IVec S8x4095x2 32) : IVec S8x4095x2 32 :=
  concatenate S8x4095x2 2
    [⟨S8x4095x1, broadcastInDim S8x4095x1 ![0, 1] bcast_S8x4095_S8x4095x1_0_1
        (broadcastInDim S8x4095 ![0, 1] bcast_S8x1_S8x4095_0_1 rowWrapped)⟩,
     ⟨S8x4095x1, broadcastInDim S8x4095x1 ![0, 1] bcast_S8x4095_S8x4095x1_0_1 (colWrapped x idx)⟩]
    concatenates_S8x4095x1_S8x4095x1_S8x4095x2_d2

/-- The table of leaf tokens: all ones, with every leaf's token written at (its row, its number). -/
def leaves (x : IVec S8x4095 32) (idx : IVec S8x4095x2 32) : IVec S8x2048 32 :=
  Host.scatter scatter_S8x2048_S8x4095x2_S8x4095_n_01_01_2 (fun _ b => b)
    (broadcastInDim S8x2048 ![] bcast_S_S8x2048 (constantI S_ 32 1#32))
    (target x idx) x

/-- The embedding-table row of each token (a negative token counted from the table's end), as an
    `8 × 2048 × 1` index table. -/
def rows (lv : IVec S8x2048 32) : IVec S8x2048x1 32 :=
  broadcastInDim S8x2048x1 ![0, 1] bcast_S8x2048_S8x2048x1_0_1
    (select
      (cmpi .slt lv (broadcastInDim S8x2048 ![] bcast_S_S8x2048 (constantI S_ 32 0#32)))
      (addi lv (broadcastInDim S8x2048 ![] bcast_S_S8x2048 (constantI S_ 32 32000#32)))
      lv)

/-- The embedded rows: row `rows (leaves x idx) [b, k]` of `W` at `(b, k, ·)`. -/
def emb (W : FVec F S32000x300 .f32) (x : IVec S8x4095 32) (idx : IVec S8x4095x2 32) : FVec F S8x2048x300 .f32 :=
  Host.gather gather_S32000x300_S8x2048x1_S8x2048x300_2_0_n_n_0_2_1300 W (rows (leaves x idx))

end Cert.ReferenceIdeal.Head

end
-- ==== Proof.EmbIn.lean ====
/-
  The array the embedding window reads is the reference's table of embedded rows.

  Both programs pack the leaf tokens and gather the embedding table's rows by the same operations on the same
  arguments; the kernel's program then narrows the gathered rows to sixteen bits, which at the exact values changes
  nothing.  So the window's array is the reference's `emb` of the three arguments, and the packing and the gather
  are never opened.
-/
import proofs.«137302_j21079699489144_1_alg».proof.Proof.Gen.KernelIdeal.Frame
import proofs.«137302_j21079699489144_1_alg».proof.Proof.Gen.ReferenceIdeal
import proofs.«137302_j21079699489144_1_alg».proof.Proof.RefHead
import Idealize.ShloMosaic.Lib.StableHlo.Run
import Idealize.ShloMosaic.PureOps.Ideal

noncomputable section

open Idealize.ShloMosaic Idealize.ShloMosaic.TcCoe Idealize.SL.Sem Idealize.ShloMosaic.StableHlo

namespace Cert.KernelIdeal.EmbIn

open Cert.KernelIdeal Cert.KernelIdeal.Gen

section
variable {F : FTy → Type} [FloatOps F]
variable (m : (ℓ : Loc nD τ sig) → Buf (Elt F) ℓ)

attribute [local irreducible] Host.scatter Host.gather Host.reduceWindow in
set_option maxRecDepth 16384 in
set_option maxHeartbeats 1000000 in
/-- The embedding window's array for any float values: the reference's embedded rows, narrowed. -/
theorem emb_term (c : Dev nD) :
    (V m c main_v38 : S8x2048x300.Idx → F .bf16)
      = truncf .bf16 (Cert.ReferenceIdeal.Head.emb (F := F) (m ((c : Thread nD τ).loc main_arg2))
          (m ((c : Thread nD τ).loc main_arg0)) (m ((c : Thread nD τ).loc main_arg1))) bitsLt_bf16_f32 := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp
  rfl
end

/-- At the exact values the narrowing is the identity. -/
theorem emb_ideal (m : (ℓ : Loc nD τ sig) → Buf (Elt Ideal) ℓ) (c : Dev nD) :
    (V m c main_v38 : S8x2048x300.Idx → EReal)
      = Cert.ReferenceIdeal.Head.emb (F := Ideal) (m ((c : Thread nD τ).loc main_arg2))
          (m ((c : Thread nD τ).loc main_arg0)) (m ((c : Thread nD τ).loc main_arg1)) :=
  (emb_term m c).trans (funext fun _ => rfl)

end Cert.KernelIdeal.EmbIn

end
-- ==== Proof.RefTail.lean ====
/-
  The last stretch of the reference, as two named terms.

  `mask idx` is the table of weights: at `(b, t, s)` it is `1.0` when exactly one of `s ≥ idx[b, t, 0]` and
  `s > idx[b, t, 1]` holds and `0.0` otherwise.  `out idx E` contracts it with the embedded rows `E` over `s`
  (one batched product) and divides, row by row, by the larger of the row's weight total and `1.0`.
-/
import proofs.«137302_j21079699489144_1_alg».proof.ReferenceIdeal

noncomputable section

namespace Cert.ReferenceIdeal.Tail

open Cert.ReferenceIdeal Idealize.ShloMosaic

variable {F : FTy → Type} [FloatOps F] [Facts]
open Facts₀ Facts

/-- The positions `0 … 2047` laid along the last axis of an `8 × 4095 × 2048` table. -/
def pos : IVec S8x4095x2048 32 :=
  broadcastInDim S8x4095x2048 ![0, 1, 2] bcast_S1x1x2048_S8x4095x2048_0_1_2
    (broadcastInDim S1x1x2048 ![2] bcast_S2048_S1x1x2048_2 (iotaInDim S2048 32 0))

/-- Column `k` of the interval table spread along the position axis. -/
def bound0 (idx : IVec S8x4095x2 32) : IVec S8x4095x2048 32 :=
  broadcastInDim S8x4095x2048 ![0, 1, 2] bcast_S8x4095x1_S8x4095x2048_0_1_2
    (extractStridedSlice S8x4095x1 ![0, 0, 0] idx slices_S8x4095x2_S8x4095x1_0_0_0)

def bound1 (idx : IVec S8x4095x2 32) : IVec S8x4095x2048 32 :=
  broadcastInDim S8x4095x2048 ![0, 1, 2] bcast_S8x4095x1_S8x4095x2048_0_1_2
    (extractStridedSlice S8x4095x1 ![0, 0, 1] idx slices_S8x4095x2_S8x4095x1_0_0_1)

/-- The weights. -/
def mask (idx : IVec S8x4095x2 32) : FVec F S8x4095x2048 .f32 :=
  uitofp .f32 (xori (cmpi .sge pos (bound0 idx)) (cmpi .sgt pos (bound1 idx)))

/-- The weight total of every row, floored at `1.0`, spread over the 300 features. -/
def divisor (idx : IVec S8x4095x2 32) : FVec F S8x4095x300 .f32 :=
  broadcastInDim S8x4095x300 ![0, 1, 2] bcast_S8x4095x1_S8x4095x300_0_1_2
    (maximumf
      (broadcastInDim S8x4095x1 ![0, 1] bcast_S8x4095_S8x4095x1_0_1
        (Host.reduceAdd (mask (F := F) idx) (constant S_ .f32 0x00000000#32) reducesTo_S8x4095x2048_S8x4095_d2 h_S_))
      (broadcastInDim S8x4095x1 ![] bcast_S_S8x4095x1 (constant S_ .f32 0x3F800000#32)))

/-- The reference's result from the interval table and the embedded rows. -/
def out (idx : IVec S8x4095x2 32) (E : FVec F S8x2048x300 .f32) : FVec F S8x4095x300 .f32 :=
  Host.divf (Host.dotGeneral dot_S8x4095x2048_S8x2048x300_S8x4095x300_2_1_1_2_0_0 none (mask (F := F) idx) E) (divisor idx)

end Cert.ReferenceIdeal.Tail

end
-- ==== Proof.RefRun.lean ====
/-
  The reference program's run, read back: its @main is a straight line of 73 host operations (the two calls
  unfolded at their sites: the running sum's three operations, the choice's three), so every weakly fair execution
  terminates, the result buffer holds the operations' composed term of the three arguments, written as
  `Tail.out idx (Head.emb W x idx)`, and the arguments are unchanged.
-/
import proofs.«137302_j21079699489144_1_alg».proof.Proof.RefHead
import proofs.«137302_j21079699489144_1_alg».proof.Proof.RefTail
import proofs.«137302_j21079699489144_1_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]
open Facts₀ Facts

/-- @main's 73 operations, in order, the calls unfolded: the running sum is three operations into its own buffers
    (the zero, its rank-zero broadcast, the windowed sum), the choice three into its own (the fill value converted to
    its own type, broadcast, the select). -/
abbrev ops : List (HloOp τ sig (Elt F)) :=
  [ unary main_arg1 main_v0 ((extractStridedSlice S8x4095x1 ![0, 0, 0] · slices_S8x4095x2_S8x4095x1_0_0_0) : (⟨S8x4095x2, .i32⟩ : BufTy).Contents (Elt F) → (⟨S8x4095x1, .i32⟩ : BufTy).Contents (Elt F)),
    reshape main_v0 main_v1 rfl shapeCasts_S8x4095x1_S8x4095,
    unary main_arg1 main_v2 ((extractStridedSlice S8x4095x1 ![0, 0, 1] · slices_S8x4095x2_S8x4095x1_0_0_1) : (⟨S8x4095x2, .i32⟩ : BufTy).Contents (Elt F) → (⟨S8x4095x1, .i32⟩ : BufTy).Contents (Elt F)),
    reshape main_v2 main_v3 rfl shapeCasts_S8x4095x1_S8x4095,
    binary main_v1 main_v3 main_v4 (cmpi .eq : (⟨S8x4095, .i32⟩ : BufTy).Contents (Elt F) → (⟨S8x4095, .i32⟩ : BufTy).Contents (Elt F) → (⟨S8x4095, .i1⟩ : BufTy).Contents (Elt F)),
    nullary main_c (constantI S_ 32 1#32),
    unary main_c main_v5 (broadcastInDim S8x4095 ![] bcast_S_S8x4095 : (⟨S_, .i32⟩ : BufTy).Contents (Elt F) → (⟨S8x4095, .i32⟩ : BufTy).Contents (Elt F)),
    binary main_arg0 main_v5 main_v6 (cmpi .ne : (⟨S8x4095, .i32⟩ : BufTy).Contents (Elt F) → (⟨S8x4095, .i32⟩ : BufTy).Contents (Elt F) → (⟨S8x4095, .i1⟩ : BufTy).Contents (Elt F)),
    binary main_v4 main_v6 main_v7 (andi : (⟨S8x4095, .i1⟩ : BufTy).Contents (Elt F) → (⟨S8x4095, .i1⟩ : BufTy).Contents (Elt F) → (⟨S8x4095, .i1⟩ : BufTy).Contents (Elt F)),
    unary main_v7 main_v8 ((extui 32 · natLt_1_32) : (⟨S8x4095, .i1⟩ : BufTy).Contents (Elt F) → (⟨S8x4095, .i32⟩ : BufTy).Contents (Elt F)),
    TRef.nullary main_call0.call0.c (constantI S_ 32 0#32),
    TRef.unary main_call0.call0.c main_call0.call0.v0 (broadcastInDim S_ ![] bcast_S_S_),
    TRef.binary (.of main_v8) main_call0.call0.v0 main_call0.call0.v1 (fun x v => Host.reduceWindow IntOp.addi ![1, 4095] ![1, 1] ![0, 4094] ![0, 0] x v reduceWindows_S8x4095_S8x4095_w1s1p0_0_w4095s1p4094_0 h_S_),
    nullary main_c_0 (constantI S_ 32 1#32),
    unary main_c_0 main_v10 (broadcastInDim S8x4095 ![] bcast_S_S8x4095 : (⟨S_, .i32⟩ : BufTy).Contents (Elt F) → (⟨S8x4095, .i32⟩ : BufTy).Contents (Elt F)),
    binary main_v9 main_v10 main_v11 (subi : (⟨S8x4095, .i32⟩ : BufTy).Contents (Elt F) → (⟨S8x4095, .i32⟩ : BufTy).Contents (Elt F) → (⟨S8x4095, .i32⟩ : BufTy).Contents (Elt F)),
    nullary main_c_1 (constantI S_ 32 2048#32),
    TRef.unary (.of main_c_1) main_call1.v0 id,
    TRef.unary main_call1.v0 main_call1.v1 (broadcastInDim S8x4095 ![] bcast_S_S8x4095),
    TRef.ternary (.of main_v7) (.of main_v11) main_call1.v1 main_call1.v2 select,
    nullary main_c_2 (constantI S_ 32 1#32),
    unary main_c_2 main_v13 (broadcastInDim S8x2048 ![] bcast_S_S8x2048 : (⟨S_, .i32⟩ : BufTy).Contents (Elt F) → (⟨S8x2048, .i32⟩ : BufTy).Contents (Elt F)),
    nullary main_v14 (iotaInDim S8 32 0),
    unary main_v14 main_v15 (broadcastInDim S8x1 ![0] bcast_S8_S8x1_0 : (⟨S8, .i32⟩ : BufTy).Contents (Elt F) → (⟨S8x1, .i32⟩ : BufTy).Contents (Elt F)),
    nullary main_c_3 (constantI S_ 32 0#32),
    unary main_c_3 main_v16 (broadcastInDim S8x1 ![] bcast_S_S8x1 : (⟨S_, .i32⟩ : BufTy).Contents (Elt F) → (⟨S8x1, .i32⟩ : BufTy).Contents (Elt F)),
    binary main_v15 main_v16 main_v17 (cmpi .slt : (⟨S8x1, .i32⟩ : BufTy).Contents (Elt F) → (⟨S8x1, .i32⟩ : BufTy).Contents (Elt F) → (⟨S8x1, .i1⟩ : BufTy).Contents (Elt F)),
    nullary main_c_4 (constantI S_ 32 8#32),
    unary main_c_4 main_v18 (broadcastInDim S8x1 ![] bcast_S_S8x1 : (⟨S_, .i32⟩ : BufTy).Contents (Elt F) → (⟨S8x1, .i32⟩ : BufTy).Contents (Elt F)),
    binary main_v15 main_v18 main_v19 (addi : (⟨S8x1, .i32⟩ : BufTy).Contents (Elt F) → (⟨S8x1, .i32⟩ : BufTy).Contents (Elt F) → (⟨S8x1, .i32⟩ : BufTy).Contents (Elt F)),
    ternary main_v17 main_v19 main_v15 main_v20 (select : (⟨S8x1, .i1⟩ : BufTy).Contents (Elt F) → (⟨S8x1, .i32⟩ : BufTy).Contents (Elt F) → (⟨S8x1, .i32⟩ : BufTy).Contents (Elt F) → (⟨S8x1, .i32⟩ : BufTy).Contents (Elt F)),
    nullary main_c_5 (constantI S_ 32 0#32),
    unary main_c_5 main_v21 (broadcastInDim S8x4095 ![] bcast_S_S8x4095 : (⟨S_, .i32⟩ : BufTy).Contents (Elt F) → (⟨S8x4095, .i32⟩ : BufTy).Contents (Elt F)),
    binary main_v12 main_v21 main_v22 (cmpi .slt : (⟨S8x4095, .i32⟩ : BufTy).Contents (Elt F) → (⟨S8x4095, .i32⟩ : BufTy).Contents (Elt F) → (⟨S8x4095, .i1⟩ : BufTy).Contents (Elt F)),
    nullary main_c_6 (constantI S_ 32 2048#32),
    unary main_c_6 main_v23 (broadcastInDim S8x4095 ![] bcast_S_S8x4095 : (⟨S_, .i32⟩ : BufTy).Contents (Elt F) → (⟨S8x4095, .i32⟩ : BufTy).Contents (Elt F)),
    binary main_v12 main_v23 main_v24 (addi : (⟨S8x4095, .i32⟩ : BufTy).Contents (Elt F) → (⟨S8x4095, .i32⟩ : BufTy).Contents (Elt F) → (⟨S8x4095, .i32⟩ : BufTy).Contents (Elt F)),
    ternary main_v22 main_v24 main_v12 main_v25 (select : (⟨S8x4095, .i1⟩ : BufTy).Contents (Elt F) → (⟨S8x4095, .i32⟩ : BufTy).Contents (Elt F) → (⟨S8x4095, .i32⟩ : BufTy).Contents (Elt F) → (⟨S8x4095, .i32⟩ : BufTy).Contents (Elt F)),
    unary main_v20 main_v26 (broadcastInDim S8x4095 ![0, 1] bcast_S8x1_S8x4095_0_1 : (⟨S8x1, .i32⟩ : BufTy).Contents (Elt F) → (⟨S8x4095, .i32⟩ : BufTy).Contents (Elt F)),
    unary main_v26 main_v27 (broadcastInDim S8x4095x1 ![0, 1] bcast_S8x4095_S8x4095x1_0_1 : (⟨S8x4095, .i32⟩ : BufTy).Contents (Elt F) → (⟨S8x4095x1, .i32⟩ : BufTy).Contents (Elt F)),
    unary main_v25 main_v28 (broadcastInDim S8x4095x1 ![0, 1] bcast_S8x4095_S8x4095x1_0_1 : (⟨S8x4095, .i32⟩ : BufTy).Contents (Elt F) → (⟨S8x4095x1, .i32⟩ : BufTy).Contents (Elt F)),
    binary main_v27 main_v28 main_v29 ((fun a b => concatenate S8x4095x2 2 [⟨S8x4095x1, a⟩, ⟨S8x4095x1, b⟩] concatenates_S8x4095x1_S8x4095x1_S8x4095x2_d2) : (⟨S8x4095x1, .i32⟩ : BufTy).Contents (Elt F) → (⟨S8x4095x1, .i32⟩ : BufTy).Contents (Elt F) → (⟨S8x4095x2, .i32⟩ : BufTy).Contents (Elt F)),
    ternary main_v13 main_v29 main_arg0 main_v30 ((fun x i u => Host.scatter scatter_S8x2048_S8x4095x2_S8x4095_n_01_01_2 (fun _ b => b) x i u) : (⟨S8x2048, .i32⟩ : BufTy).Contents (Elt F) → (⟨S8x4095x2, .i32⟩ : BufTy).Contents (Elt F) → (⟨S8x4095, .i32⟩ : BufTy).Contents (Elt F) → (⟨S8x2048, .i32⟩ : BufTy).Contents (Elt F)),
    nullary main_v31 (iotaInDim S2048 32 0),
    unary main_v31 main_v32 (broadcastInDim S1x1x2048 ![2] bcast_S2048_S1x1x2048_2 : (⟨S2048, .i32⟩ : BufTy).Contents (Elt F) → (⟨S1x1x2048, .i32⟩ : BufTy).Contents (Elt F)),
    unary main_arg1 main_v33 ((extractStridedSlice S8x4095x1 ![0, 0, 0] · slices_S8x4095x2_S8x4095x1_0_0_0) : (⟨S8x4095x2, .i32⟩ : BufTy).Contents (Elt F) → (⟨S8x4095x1, .i32⟩ : BufTy).Contents (Elt F)),
    unary main_v32 main_v34 (broadcastInDim S8x4095x2048 ![0, 1, 2] bcast_S1x1x2048_S8x4095x2048_0_1_2 : (⟨S1x1x2048, .i32⟩ : BufTy).Contents (Elt F) → (⟨S8x4095x2048, .i32⟩ : BufTy).Contents (Elt F)),
    unary main_v33 main_v35 (broadcastInDim S8x4095x2048 ![0, 1, 2] bcast_S8x4095x1_S8x4095x2048_0_1_2 : (⟨S8x4095x1, .i32⟩ : BufTy).Contents (Elt F) → (⟨S8x4095x2048, .i32⟩ : BufTy).Contents (Elt F)),
    binary main_v34 main_v35 main_v36 (cmpi .sge : (⟨S8x4095x2048, .i32⟩ : BufTy).Contents (Elt F) → (⟨S8x4095x2048, .i32⟩ : BufTy).Contents (Elt F) → (⟨S8x4095x2048, .i1⟩ : BufTy).Contents (Elt F)),
    unary main_arg1 main_v37 ((extractStridedSlice S8x4095x1 ![0, 0, 1] · slices_S8x4095x2_S8x4095x1_0_0_1) : (⟨S8x4095x2, .i32⟩ : BufTy).Contents (Elt F) → (⟨S8x4095x1, .i32⟩ : BufTy).Contents (Elt F)),
    unary main_v32 main_v38 (broadcastInDim S8x4095x2048 ![0, 1, 2] bcast_S1x1x2048_S8x4095x2048_0_1_2 : (⟨S1x1x2048, .i32⟩ : BufTy).Contents (Elt F) → (⟨S8x4095x2048, .i32⟩ : BufTy).Contents (Elt F)),
    unary main_v37 main_v39 (broadcastInDim S8x4095x2048 ![0, 1, 2] bcast_S8x4095x1_S8x4095x2048_0_1_2 : (⟨S8x4095x1, .i32⟩ : BufTy).Contents (Elt F) → (⟨S8x4095x2048, .i32⟩ : BufTy).Contents (Elt F)),
    binary main_v38 main_v39 main_v40 (cmpi .sgt : (⟨S8x4095x2048, .i32⟩ : BufTy).Contents (Elt F) → (⟨S8x4095x2048, .i32⟩ : BufTy).Contents (Elt F) → (⟨S8x4095x2048, .i1⟩ : BufTy).Contents (Elt F)),
    binary main_v36 main_v40 main_v41 (xori : (⟨S8x4095x2048, .i1⟩ : BufTy).Contents (Elt F) → (⟨S8x4095x2048, .i1⟩ : BufTy).Contents (Elt F) → (⟨S8x4095x2048, .i1⟩ : BufTy).Contents (Elt F)),
    unary main_v41 main_v42 (uitofp .f32 : (⟨S8x4095x2048, .i1⟩ : BufTy).Contents (Elt F) → (⟨S8x4095x2048, .f32⟩ : BufTy).Contents (Elt F)),
    nullary main_c_7 (constantI S_ 32 0#32),
    unary main_c_7 main_v43 (broadcastInDim S8x2048 ![] bcast_S_S8x2048 : (⟨S_, .i32⟩ : BufTy).Contents (Elt F) → (⟨S8x2048, .i32⟩ : BufTy).Contents (Elt F)),
    binary main_v30 main_v43 main_v44 (cmpi .slt : (⟨S8x2048, .i32⟩ : BufTy).Contents (Elt F) → (⟨S8x2048, .i32⟩ : BufTy).Contents (Elt F) → (⟨S8x2048, .i1⟩ : BufTy).Contents (Elt F)),
    nullary main_c_8 (constantI S_ 32 32000#32),
    unary main_c_8 main_v45 (broadcastInDim S8x2048 ![] bcast_S_S8x2048 : (⟨S_, .i32⟩ : BufTy).Contents (Elt F) → (⟨S8x2048, .i32⟩ : BufTy).Contents (Elt F)),
    binary main_v30 main_v45 main_v46 (addi : (⟨S8x2048, .i32⟩ : BufTy).Contents (Elt F) → (⟨S8x2048, .i32⟩ : BufTy).Contents (Elt F) → (⟨S8x2048, .i32⟩ : BufTy).Contents (Elt F)),
    ternary main_v44 main_v46 main_v30 main_v47 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    unary main_v47 main_v48 (broadcastInDim S8x2048x1 ![0, 1] bcast_S8x2048_S8x2048x1_0_1 : (⟨S8x2048, .i32⟩ : BufTy).Contents (Elt F) → (⟨S8x2048x1, .i32⟩ : BufTy).Contents (Elt F)),
    binary main_arg2 main_v48 main_v49 ((fun x i => Host.gather gather_S32000x300_S8x2048x1_S8x2048x300_2_0_n_n_0_2_1300 x i) : (⟨S32000x300, .f32⟩ : BufTy).Contents (Elt F) → (⟨S8x2048x1, .i32⟩ : BufTy).Contents (Elt F) → (⟨S8x2048x300, .f32⟩ : BufTy).Contents (Elt F)),
    nullary main_cst (constant S_ .f32 0x00000000#32),
    binary main_v42 main_cst main_v50 ((fun x v => Host.reduceAdd x v reducesTo_S8x4095x2048_S8x4095_d2 h_S_) : (⟨S8x4095x2048, .f32⟩ : BufTy).Contents (Elt F) → (⟨S_, .f32⟩ : BufTy).Contents (Elt F) → (⟨S8x4095, .f32⟩ : BufTy).Contents (Elt F)),
    unary main_v50 main_v51 (broadcastInDim S8x4095x1 ![0, 1] bcast_S8x4095_S8x4095x1_0_1 : (⟨S8x4095, .f32⟩ : BufTy).Contents (Elt F) → (⟨S8x4095x1, .f32⟩ : BufTy).Contents (Elt F)),
    nullary main_cst_9 (constant S_ .f32 0x3F800000#32),
    unary main_cst_9 main_v52 (broadcastInDim S8x4095x1 ![] bcast_S_S8x4095x1 : (⟨S_, .f32⟩ : BufTy).Contents (Elt F) → (⟨S8x4095x1, .f32⟩ : BufTy).Contents (Elt F)),
    binary main_v51 main_v52 main_v53 (maximumf : (⟨S8x4095x1, .f32⟩ : BufTy).Contents (Elt F) → (⟨S8x4095x1, .f32⟩ : BufTy).Contents (Elt F) → (⟨S8x4095x1, .f32⟩ : BufTy).Contents (Elt F)),
    binary main_v42 main_v49 main_v54 ((fun l r => Host.dotGeneral dot_S8x4095x2048_S8x2048x300_S8x4095x300_2_1_1_2_0_0 none l r) : (⟨S8x4095x2048, .f32⟩ : BufTy).Contents (Elt F) → (⟨S8x2048x300, .f32⟩ : BufTy).Contents (Elt F) → (⟨S8x4095x300, .f32⟩ : BufTy).Contents (Elt F)),
    unary main_v53 main_v55 (broadcastInDim S8x4095x300 ![0, 1, 2] bcast_S8x4095x1_S8x4095x300_0_1_2 : (⟨S8x4095x1, .f32⟩ : BufTy).Contents (Elt F) → (⟨S8x4095x300, .f32⟩ : BufTy).Contents (Elt F)),
    binary main_v54 main_v55 main_v56 (Host.divf : (⟨S8x4095x300, .f32⟩ : BufTy).Contents (Elt F) → (⟨S8x4095x300, .f32⟩ : BufTy).Contents (Elt F) → (⟨S8x4095x300, .f32⟩ : BufTy).Contents (Elt F)) ]

set_option maxRecDepth 4096 in
set_option maxHeartbeats 4000000 in
/-- @main is that straight line: the two windows and the called functions unfolded, both sides are one chain of
    steps once sequencing is re-associated. -/
theorem main_eq (c : Dev nD) : main (F := F) c = seq ops := by
  simp only [main, main_part0, main_part1, fn_cumsum.body, fn_cumsum_0.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., binary_bufs_sub .., nullary_bufs_sub ..,
    unary_bufs_sub .., binary_bufs_sub .., binary_bufs_sub .., unary_bufs_sub .., nullary_bufs_sub .., unary_bufs_sub ..,
    binary_bufs_sub .., nullary_bufs_sub .., unary_bufs_sub .., binary_bufs_sub .., nullary_bufs_sub .., unary_bufs_sub ..,
    unary_bufs_sub .., ternary_bufs_sub .., nullary_bufs_sub .., unary_bufs_sub .., nullary_bufs_sub .., unary_bufs_sub ..,
    nullary_bufs_sub .., unary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., unary_bufs_sub .., unary_bufs_sub .., unary_bufs_sub .., binary_bufs_sub ..,
    ternary_bufs_sub .., nullary_bufs_sub .., unary_bufs_sub .., unary_bufs_sub .., unary_bufs_sub .., unary_bufs_sub ..,
    binary_bufs_sub .., unary_bufs_sub .., unary_bufs_sub .., unary_bufs_sub .., binary_bufs_sub .., binary_bufs_sub ..,
    unary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., binary_bufs_sub ..,
    unary_bufs_sub .., nullary_bufs_sub .., unary_bufs_sub .., binary_bufs_sub .., binary_bufs_sub .., unary_bufs_sub ..,
    binary_bufs_sub ..⟩

attribute [local irreducible] Host.scatter Host.gather Host.reduceWindow Host.reduceAdd in
set_option maxRecDepth 16384 in
set_option maxHeartbeats 4000000 in
/-- The fold at the result buffer is `Tail.out` of the interval table and `Head.emb` of the three arguments, by
    computation: each operation's result is read at its own buffer and every other buffer keeps what it held, and
    what is left is the two named terms unfolded.  The scatter, the gather, the windowed sum and the row sum are kept
    folded meanwhile (the batched product is the float instance's own, with nothing to unfold): the equation never
    looks inside them. -/
theorem out_eq (V : Valuation τ sig (Elt F)) :
    after ops V (main_v56 : DevRef τ sig)
      = Tail.out (V (main_arg1 : DevRef τ sig))
          (Head.emb (V (main_arg2 : DevRef τ sig)) (V (main_arg0 : DevRef τ sig)) (V (main_arg1 : DevRef τ sig))) := by
  after_results_simp
  rfl

set_option maxRecDepth 16384 in
theorem arg0_eq (V : Valuation τ sig (Elt F)) :
    after ops V (main_arg0 : DevRef τ sig) = V (main_arg0 : DevRef τ sig) := by
  after_results_simp

set_option maxRecDepth 16384 in
theorem arg1_eq (V : Valuation τ sig (Elt F)) :
    after ops V (main_arg1 : DevRef τ sig) = V (main_arg1 : DevRef τ sig) := by
  after_results_simp

set_option maxRecDepth 16384 in
theorem arg2_eq (V : Valuation τ sig (Elt F)) :
    after ops V (main_arg2 : DevRef τ sig) = V (main_arg2 : DevRef τ sig) := by
  after_results_simp

/-- On every device, for any float values, from any memory with zero counters: every weakly fair execution of
    @main terminates with the result at `Tail.out` of the interval table and the embedded rows, and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v56) = Tail.out (m ((c.tc : Thread nD τ).loc main_arg1)) (Head.emb (m ((c.tc : Thread nD τ).loc main_arg2)) (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v56).trans (out_eq _),
      (h c main_arg0).trans (arg0_eq _),
      (h c main_arg1).trans (arg1_eq _),
      (h c main_arg2).trans (arg2_eq _)⟩)
    (run_seq scopedRefs_eq scopedSems_eq defs main (fun _ => ops) main_eq (fun _ => ops_sub) m ρ)

end Cert.ReferenceIdeal.RefRun

end
-- ==== Proof.RefRead.lean ====
/-
  The reference's last stretch read at one entry.

  At `(b, t, s)` the weight table is the weight of position `s` for node `t`'s interval in batch row `b`; the batched
  product contracts it with the embedded rows over `s`, the row total sums it over `s`, and the quotient of the two, the
  total floored at `1.0`, is the segment mean of column `d`.
-/
import proofs.«137302_j21079699489144_1_alg».proof.Proof.RefTail
import proofs.«137302_j21079699489144_1_alg».proof.Proof.Spec
import Idealize.ShloMosaic.Lib.ValueIdx
import Idealize.ShloMosaic.Lib.Pipeline.Value
import Idealize.ShloMosaic.Lib.StackMember
import Idealize.ShloMosaic.PureOps.Ideal.Laws

noncomputable section

namespace Cert.ReferenceIdeal.RefRead

open Cert.ReferenceIdeal Cert.ReferenceIdeal.Tail Idealize.ShloMosaic Idealize.ShloMosaic.ValueIdx
open Facts₀ Facts

variable [Cert.ReferenceIdeal.Facts]

/-- The position table at `(b, t, s)` is the word `s`. -/
theorem pos_apply (b : Fin 8) (t : Fin 4095) (s : Fin 2048) :
    pos (ix3 b t s) = BitVec.ofNat 32 s.val := by
  unfold pos
  rw [broadcastInDim_apply _ _ _ (ix3 b t s) (ix3 (0 : Fin 1) (0 : Fin 1) s) (by
    intro a; match a with
    | ⟨0, _⟩ => rfl
    | ⟨1, _⟩ => rfl
    | ⟨2, _⟩ => rfl)]
  rw [broadcastInDim_apply _ _ _ (ix3 (0 : Fin 1) (0 : Fin 1) s) (ix1 s) (by
    intro a; match a with
    | ⟨0, _⟩ => rfl)]
  rfl

/-- The lower bounds spread along the position axis: at `(b, t, s)` the entry `idx[b, t, 0]`. -/
theorem bound0_apply (idx : IVec S8x4095x2 32) (b : Fin 8) (t : Fin 4095) (s : Fin 2048) :
    bound0 idx (ix3 b t s) = idx (ix3 b t (0 : Fin 2)) := by
  unfold bound0
  rw [broadcastInDim_apply _ _ _ (ix3 b t s) (ix3 b t (0 : Fin 1)) (by
    intro a; match a with
    | ⟨0, _⟩ => rfl
    | ⟨1, _⟩ => rfl
    | ⟨2, _⟩ => rfl)]
  exact extractStridedSlice_apply _ _ _ _ _ (by
    intro a; match a with
    | ⟨0, _⟩ => exact (Nat.zero_add _).symm
    | ⟨1, _⟩ => exact (Nat.zero_add _).symm
    | ⟨2, _⟩ => rfl)

/-- The upper bounds spread along the position axis: at `(b, t, s)` the entry `idx[b, t, 1]`. -/
theorem bound1_apply (idx : IVec S8x4095x2 32) (b : Fin 8) (t : Fin 4095) (s : Fin 2048) :
    bound1 idx (ix3 b t s) = idx (ix3 b t (1 : Fin 2)) := by
  unfold bound1
  rw [broadcastInDim_apply _ _ _ (ix3 b t s) (ix3 b t (0 : Fin 1)) (by
    intro a; match a with
    | ⟨0, _⟩ => rfl
    | ⟨1, _⟩ => rfl
    | ⟨2, _⟩ => rfl)]
  exact extractStridedSlice_apply _ _ _ _ _ (by
    intro a; match a with
    | ⟨0, _⟩ => exact (Nat.zero_add _).symm
    | ⟨1, _⟩ => exact (Nat.zero_add _).symm
    | ⟨2, _⟩ => rfl)

/-- The weight table at `(b, t, s)` is the weight of position `s` for the interval `[idx[b, t, 0], idx[b, t, 1]]`. -/
theorem mask_apply (idx : IVec S8x4095x2 32) (b : Fin 8) (t : Fin 4095) (s : Fin 2048) :
    mask (F := Ideal) idx (ix3 b t s) = Cert.Seg.wt (idx (ix3 b t (0 : Fin 2))) (idx (ix3 b t (1 : Fin 2))) s.val := by
  show (((IntOp.xori (IntOp.cmpi .sge (pos (ix3 b t s)) (bound0 idx (ix3 b t s)))
      (IntOp.cmpi .sgt (pos (ix3 b t s)) (bound1 idx (ix3 b t s)))).toNat : ℝ) : EReal) = _
  rw [pos_apply, bound0_apply, bound1_apply]
  rfl

/-- The batched product at `(b, t, d)` is the weighted sum of column `d` of batch row `b` over the 2048 positions. -/
theorem dot_apply (idx : IVec S8x4095x2 32) (E : FVec Ideal S8x2048x300 .f32) (b : Fin 8) (t : Fin 4095) (d : Fin 300) :
    Host.dotGeneral dot_S8x4095x2048_S8x2048x300_S8x4095x300_2_1_1_2_0_0 none (mask (F := Ideal) idx) E (ix3 b t d)
      = Cert.Seg.num (idx (ix3 b t (0 : Fin 2))) (idx (ix3 b t (1 : Fin 2))) (fun s => E (ix3 b s d)) := by
  refine (StackMember.dotGeneral_stack_apply (G := 8) (m := 4095) (n := 300) (k := 2048)
    dot_S8x4095x2048_S8x2048x300_S8x4095x300_2_1_1_2_0_0_wf none (mask (F := Ideal) idx) E b t d).trans ?_
  unfold Cert.Seg.num
  exact Finset.sum_congr rfl fun s _ => by rw [mask_apply]

/-- The row total at `(b, t)` is the sum of the weights over the 2048 positions (the initial value is zero). -/
theorem rowTotal_apply (idx : IVec S8x4095x2 32) (b : Fin 8) (t : Fin 4095) :
    Host.reduceAdd (mask (F := Ideal) idx) (constant S_ .f32 0x00000000#32) reducesTo_S8x4095x2048_S8x4095_d2 h_S_ (ix2 b t)
      = Cert.Seg.den (idx (ix3 b t (0 : Fin 2))) (idx (ix3 b t (1 : Fin 2))) := by
  have h : S8x4095x2048.Reduces [2] S8x4095 := by decide
  show Ideal.hostReduceAdd reducesTo_S8x4095x2048_S8x4095_d2 (mask (F := Ideal) idx) (Ideal.ofBits .f32 0x00000000#32) (ix2 b t) = _
  rw [Ideal.hostReduceAdd_single reducesTo_S8x4095x2048_S8x4095_d2 h, Ideal.ofBits_zero_f32, zero_add]
  unfold Cert.Seg.den
  refine Finset.sum_congr rfl fun s _ => ?_
  have e : h.lift (ix2 b t) s = ix3 b t s := by
    funext a; apply Fin.ext
    match a with
    | ⟨0, _⟩ => rfl
    | ⟨1, _⟩ => rfl
    | ⟨2, _⟩ => rfl
  rw [e]
  exact mask_apply idx b t s

/-- The divisor at `(b, t, d)` is the row total floored at `1.0`, whatever the feature `d`. -/
theorem divisor_apply (idx : IVec S8x4095x2 32) (b : Fin 8) (t : Fin 4095) (d : Fin 300) :
    divisor (F := Ideal) idx (ix3 b t d)
      = max (Cert.Seg.den (idx (ix3 b t (0 : Fin 2))) (idx (ix3 b t (1 : Fin 2)))) Cert.Seg.one := by
  unfold divisor
  rw [broadcastInDim_apply _ _ _ (ix3 b t d) (ix3 b t (0 : Fin 1)) (by
    intro a; match a with
    | ⟨0, _⟩ => rfl
    | ⟨1, _⟩ => rfl
    | ⟨2, _⟩ => rfl)]
  rw [maximumf_apply]
  rw [broadcastInDim_apply _ _ _ (ix3 b t (0 : Fin 1)) (ix2 b t) (by
    intro a; match a with
    | ⟨0, _⟩ => rfl
    | ⟨1, _⟩ => rfl)]
  rw [rowTotal_apply]
  rfl

/-- The reference's result at `(b, t, d)` is the segment mean of column `d` of batch row `b` over node `t`'s interval. -/
theorem out_apply (idx : IVec S8x4095x2 32) (E : FVec Ideal S8x2048x300 .f32) (b : Fin 8) (t : Fin 4095) (d : Fin 300) :
    Tail.out (F := Ideal) idx E (ix3 b t d) = Cert.Seg.G idx E b t d := by
  show Ideal.div (Host.dotGeneral dot_S8x4095x2048_S8x2048x300_S8x4095x300_2_1_1_2_0_0 none (mask (F := Ideal) idx) E (ix3 b t d))
    (divisor (F := Ideal) idx (ix3 b t d)) = _
  rw [dot_apply, divisor_apply]
  rfl

end Cert.ReferenceIdeal.RefRead

end
-- ==== Proof.lean ====
/-
  The kernel computes, for every batch row, node and feature, the mean of the embedded leaf rows over the node's
  interval: the rows are gathered on the host, the kernel adds up, tile by tile over the 2048 leaf positions, the
  rows inside the interval and their number, and after a row's last tile divides the sum by the larger of the number
  and one.  The reference forms the whole 0/1 weight table, contracts it with the embedded rows in one batched
  product, sums it along the positions and divides.  Over the extended reals the two results are the same function of
  the arguments, entry by entry: a sum over the 2048 positions is the sum of its eight tiles' sums (addition is
  commutative and associative there; no entry needs to be finite), the narrowing of the rows to sixteen bits changes
  nothing, and the leaf packing and the gather are the same operations on the same arguments in both programs.

  The three frames: the kernel's two are the generated frame proofs; the reference's is its run with the result dropped.
  The idealization rewrote no operation, so there is nothing to preserve.
-/
import proofs.«137302_j21079699489144_1_alg».proof.Defs
import proofs.«137302_j21079699489144_1_alg».proof.Proof.Gen.Kernel
import proofs.«137302_j21079699489144_1_alg».proof.Proof.Gen.Kernel.Skeleton
import proofs.«137302_j21079699489144_1_alg».proof.Proof.Gen.Kernel.Launch
import proofs.«137302_j21079699489144_1_alg».proof.Proof.Gen.Kernel.Points
import proofs.«137302_j21079699489144_1_alg».proof.Proof.Gen.Kernel.Frame
import proofs.«137302_j21079699489144_1_alg».proof.Proof.Gen.KernelIdeal
import proofs.«137302_j21079699489144_1_alg».proof.Proof.Gen.KernelIdeal.Skeleton
import proofs.«137302_j21079699489144_1_alg».proof.Proof.Gen.KernelIdeal.Launch
import proofs.«137302_j21079699489144_1_alg».proof.Proof.Gen.KernelIdeal.Points
import proofs.«137302_j21079699489144_1_alg».proof.Proof.Gen.KernelIdeal.Frame
import proofs.«137302_j21079699489144_1_alg».proof.Proof.Gen.KernelIdeal.Value
import proofs.«137302_j21079699489144_1_alg».proof.Proof.Gen.ReferenceIdeal
import proofs.«137302_j21079699489144_1_alg».proof.Proof.Gen.Pre_finite_inputs
import proofs.«137302_j21079699489144_1_alg».proof.Proof.Final
import proofs.«137302_j21079699489144_1_alg».proof.Proof.EmbIn
import proofs.«137302_j21079699489144_1_alg».proof.Proof.RefRun
import proofs.«137302_j21079699489144_1_alg».proof.Proof.RefRead
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both runs end with the result array at the segment means of the embedded rows of the same arguments. -/
theorem algebraic : Cert.algebraic_KernelIdeal_ReferenceIdeal := by
  intro m ρ m' ρ' _ hagree
  refine ⟨fun c => fun i => Cert.Seg.G (m ((c.tc : Thread Cert.KernelIdeal.nD Cert.KernelIdeal.τ).loc Cert.KernelIdeal.main_arg1))
      (Cert.ReferenceIdeal.Head.emb (F := Ideal) (m ((c.tc : Thread Cert.KernelIdeal.nD Cert.KernelIdeal.τ).loc Cert.KernelIdeal.main_arg2))
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))) (i 0) (i 1) (i 2), ?_, ?_⟩
  · refine (θ_run Cert.KernelIdeal.defs _ _).mono (fun r h c => ⟨(h c).1.trans ?_, (h c).2⟩) (Cert.KernelIdeal.Final.run m ρ)
    rw [Cert.KernelIdeal.EmbIn.emb_ideal m c]
  · refine (θ_run Cert.ReferenceIdeal.defs _ _).mono (fun r h c => ⟨(h c).1.trans ?_, (h c).2⟩)
      (Cert.ReferenceIdeal.RefRun.run (F := Ideal) m' ρ')
    rw [(hagree c).1, (hagree c).2.1, (hagree c).2.2]
    funext i
    rw [eq_ix3 i]
    exact Cert.ReferenceIdeal.RefRead.out_apply _ _ (i 0) (i 1) (i 2)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
